-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S3x144x128 : Shape := ⟨3, ![3, 144, 128]⟩
abbrev S3x128 : Shape := ⟨2, ![3, 128]⟩
abbrev S3x128x128 : Shape := ⟨3, ![3, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S3x144x128 : S_.BroadcastsInDim S3x144x128 (![] : Fin 0 → Fin S3x144x128.rank)
  reducesTo_S3x144x128_S_d0_1_2 : S3x144x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part2 {F : FTy → Type} [FloatOps F] (main_arg8 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  main_v38

def fn_part1 {F : FTy → Type} [FloatOps F] (main_arg5 : FVec F S3x128x128 .f32) (main_arg6 : FVec F S3x128 .f32) (main_arg7 : FVec F S3x128x128 .f32) (main_arg8 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x16 .f32) (main_arg3 : FVec F S3x144x128 .f32) (main_arg4 : FVec F S3x128 .f32) (main_arg5 : FVec F S3x128x128 .f32) (main_arg6 : FVec F S3x128 .f32) (main_arg7 : FVec F S3x128x128 .f32) (main_arg8 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S3x144x128 .f32 := Host.absf main_arg3
  let main_cst_2 : FVec F S_ .f32 := constant S_ .f32 0x7F800000#32
  let main_v10 : FVec F S3x144x128 .f32 := broadcastInDim S3x144x128 ![] bcast_S_S3x144x128 main_cst_2
  let main_v11 : IVec S3x144x128 1 := cmpf .olt main_v9 main_v10
  let main_c_3 : IVec S_ 1 := constantI S_ 1 1#1
  let main_v12 : IVec S_ 1 := (fun x v => Host.reduce IntOp.andi x v reducesTo_S3x144x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S3x144x128 : Shape := ⟨3, ![3, 144, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x144x128 : Shape := ⟨3, ![1, 144, 128]⟩
abbrev S144x128 : Shape := ⟨2, ![144, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S8000x128 : Shape := ⟨2, ![8000, 128]⟩
abbrev S8000x16 : Shape := ⟨2, ![8000, 16]⟩
abbrev S16x128 : Shape := ⟨2, ![16, 128]⟩
abbrev S5000x128 : Shape := ⟨2, ![5000, 128]⟩

abbrev nBuf : Space → Nat
  | .hbm => 132
  | .vmem => 60
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S3x144x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000x1, .f32⟩
  | 15 => ⟨S_, .f32⟩
  | 16 => ⟨S50000x1, .f32⟩
  | 17 => ⟨S800000x1, .i32⟩
  | 18 => ⟨S50000x1, .f32⟩
  | 19 => ⟨S_, .f32⟩
  | 20 => ⟨S50000x1, .f32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S800000x16, .bf16⟩
  | 27 => ⟨S50000x128, .bf16⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .bf16⟩
  | 37 => ⟨S1x144x128, .f32⟩
  | 38 => ⟨S144x128, .f32⟩
  | 39 => ⟨S144x128, .bf16⟩
  | 40 => ⟨S1x128, .f32⟩
  | 41 => ⟨S128, .f32⟩
  | 42 => ⟨S1x128x128, .f32⟩
  | 43 => ⟨S128x128, .f32⟩
  | 44 => ⟨S128x128, .bf16⟩
  | 45 => ⟨S1x128, .f32⟩
  | 46 => ⟨S128, .f32⟩
  | 47 => ⟨S1x128, .f32⟩
  | 48 => ⟨S1x128, .f32⟩
  | 49 => ⟨S800000x128, .bf16⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x128x128, .f32⟩
  | 56 => ⟨S128x128, .f32⟩
  | 57 => ⟨S128x128, .bf16⟩
  | 58 => ⟨S1x128, .f32⟩
  | 59 => ⟨S128, .f32⟩
  | 60 => ⟨S1x128, .f32⟩
  | 61 => ⟨S50000x128, .f32⟩
  | 62 => ⟨S50000x128, .bf16⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .bf16⟩
  | 72 => ⟨S1x144x128, .f32⟩
  | 73 => ⟨S144x128, .f32⟩
  | 74 => ⟨S144x128, .bf16⟩
  | 75 => ⟨S1x128, .f32⟩
  | 76 => ⟨S128, .f32⟩
  | 77 => ⟨S1x128x128, .f32⟩
  | 78 => ⟨S128x128, .f32⟩
  | 79 => ⟨S128x128, .bf16⟩
  | 80 => ⟨S1x128, .f32⟩
  | 81 => ⟨S128, .f32⟩
  | 82 => ⟨S1x128, .f32⟩
  | 83 => ⟨S1x128, .f32⟩
  | 84 => ⟨S800000x128, .bf16⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S1x128x128, .f32⟩
  | 91 => ⟨S128x128, .f32⟩
  | 92 => ⟨S128x128, .bf16⟩
  | 93 => ⟨S1x128, .f32⟩
  | 94 => ⟨S128, .f32⟩
  | 95 => ⟨S1x128, .f32⟩
  | 96 => ⟨S50000x128, .f32⟩
  | 97 => ⟨S50000x128, .bf16⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .bf16⟩
  | 107 => ⟨S1x144x128, .f32⟩
  | 108 => ⟨S144x128, .f32⟩
  | 109 => ⟨S144x128, .bf16⟩
  | 110 => ⟨S1x128, .f32⟩
  | 111 => ⟨S128, .f32⟩
  | 112 => ⟨S1x128x128, .f32⟩
  | 113 => ⟨S128x128, .f32⟩
  | 114 => ⟨S128x128, .bf16⟩
  | 115 => ⟨S1x128, .f32⟩
  | 116 => ⟨S128, .f32⟩
  | 117 => ⟨S1x128, .f32⟩
  | 118 => ⟨S1x128, .f32⟩
  | 119 => ⟨S800000x128, .bf16⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x128x128, .f32⟩
  | 126 => ⟨S128x128, .f32⟩
  | 127 => ⟨S128x128, .bf16⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x128, .bf16⟩
  | .local _ .vmem, ⟨1, _⟩ => ⟨S8000x128, .bf16⟩
  | .local _ .vmem, ⟨2, _⟩ => ⟨S8000x16, .bf16⟩
  | .local _ .vmem, ⟨3, _⟩ => ⟨S8000x16, .bf16⟩
  | .local _ .vmem, ⟨4, _⟩ => ⟨S144x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S8000x128, .bf16⟩
  | .local _ .vmem, ⟨9, _⟩ => ⟨S8000x128, .bf16⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S8000x128, .bf16⟩
  | .local _ .vmem, ⟨21, _⟩ => ⟨S8000x128, .bf16⟩
  | .local _ .vmem, ⟨22, _⟩ => ⟨S8000x16, .bf16⟩
  | .local _ .vmem, ⟨23, _⟩ => ⟨S8000x16, .bf16⟩
  | .local _ .vmem, ⟨24, _⟩ => ⟨S144x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S8000x128, .bf16⟩
  | .local _ .vmem, ⟨29, _⟩ => ⟨S8000x128, .bf16⟩
  | .local _ .vmem, ⟨30, _⟩ => ⟨S5000x128, .f32⟩
  | .local _ .vmem, ⟨31, _⟩ => ⟨S5000x128, .f32⟩
  | .local _ .vmem, ⟨32, _⟩ => ⟨S128x128, .bf16⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S8000x128, .bf16⟩
  | .local _ .vmem, ⟨41, _⟩ => ⟨S8000x128, .bf16⟩
  | .local _ .vmem, ⟨42, _⟩ => ⟨S8000x16, .bf16⟩
  | .local _ .vmem, ⟨43, _⟩ => ⟨S8000x16, .bf16⟩
  | .local _ .vmem, ⟨44, _⟩ => ⟨S144x128, .bf16⟩
  | .local _ .vmem, ⟨45, _⟩ => ⟨S1x128, .f32⟩
  | .local _ .vmem, ⟨46, _⟩ => ⟨S128x128, .bf16⟩
  | .local _ .vmem, ⟨47, _⟩ => ⟨S1x128, .f32⟩
  | .local _ .vmem, ⟨48, _⟩ => ⟨S8000x128, .bf16⟩
  | .local _ .vmem, ⟨49, _⟩ => ⟨S8000x128, .bf16⟩
  | .local _ .vmem, ⟨50, _⟩ => ⟨S5000x128, .f32⟩
  | .local _ .vmem, ⟨51, _⟩ => ⟨S5000x128, .f32⟩
  | .local _ .vmem, ⟨52, _⟩ => ⟨S128x128, .bf16⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_8 : Ref sig .tc := ⟨.hbm, 98, rfl⟩
abbrev main_v79 : Ref sig .tc := ⟨.hbm, 99, rfl⟩
abbrev main_v80 : Ref sig .tc := ⟨.hbm, 100, rfl⟩
abbrev main_c_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_10 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55
abbrev cc5_sem4_0 : DmaSem sig := 56
abbrev cc5_sem4_1 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x16 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S144x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x16 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S144x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  bitsLt_bf16_f32 : FTy.bits .bf16 < FTy.bits .f32
  bcast_S_S800000 : S_.BroadcastsInDim S800000 (![] : Fin 0 → Fin S800000.rank)
  slices_S3x144x128_S1x144x128_0_0_0 : S3x144x128.Slices ![0, 0, 0] S1x144x128
  shapeCasts_S1x144x128_S144x128 : S1x144x128.ShapeCasts S144x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S144x128_S128x128_0_0 : ∀ a, (![0, 0] : Fin 2 → Nat) a + S128x128.size a ≤ S144x128.size a
  h_S128x128 : 0 < S128x128.numel
  shapeCasts_S128x128_S128x128 : S128x128.ShapeCasts S128x128
  inb_S144x128_S16x128_128_0 : ∀ a, (![128, 0] : Fin 2 → Nat) a + S16x128.size a ≤ S144x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  slices_S3x144x128_S1x144x128_1_0_0 : S3x144x128.Slices ![1, 0, 0] S1x144x128
  slices_S3x128_S1x128_1_0 : S3x128.Slices ![1, 0] S1x128
  slices_S3x128x128_S1x128x128_1_0_0 : S3x128x128.Slices ![1, 0, 0] S1x128x128
  slices_S3x144x128_S1x144x128_2_0_0 : S3x144x128.Slices ![2, 0, 0] S1x144x128
  slices_S3x128_S1x128_2_0 : S3x128.Slices ![2, 0] S1x128
  slices_S3x128x128_S1x128x128_2_0_0 : S3x128x128.Slices ![2, 0, 0] S1x128x128
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x16_S16x128_S8000x128_1_0_0_1_n_n_wf : DotDims.WF S8000x16 S16x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S800000x16.size a
  hwx0_1 : ∀ i : grid0.Coords, EltTy.bits .bf16 = 32 ∨ (Rect.block (s := S800000x16) S8000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S144x128.size a ≤ S144x128.size a
  hwx0_2 : ∀ i : grid0.Coords, EltTy.bits .bf16 = 32 ∨ (Rect.block (s := S144x128) S144x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S800000x128.size a
  hwx0_6 : ∀ i : grid0.Coords, EltTy.bits .bf16 = 32 ∨ (Rect.block (s := S800000x128) S8000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .bf16 = 32 ∨ (Rect.block (s := S800000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x16.size a ≤ S800000x16.size a
  hwx2_1 : ∀ i : grid2.Coords, EltTy.bits .bf16 = 32 ∨ (Rect.block (s := S800000x16) S8000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S144x128.size a ≤ S144x128.size a
  hwx2_2 : ∀ i : grid2.Coords, EltTy.bits .bf16 = 32 ∨ (Rect.block (s := S144x128) S144x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S800000x128.size a
  hwx2_6 : ∀ i : grid2.Coords, EltTy.bits .bf16 = 32 ∨ (Rect.block (s := S800000x128) S8000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .bf16 = 32 ∨ (Rect.block (s := S800000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x16.size a ≤ S800000x16.size a
  hwx4_1 : ∀ i : grid4.Coords, EltTy.bits .bf16 = 32 ∨ (Rect.block (s := S800000x16) S8000x16.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S144x128.size a ≤ S144x128.size a
  hwx4_2 : ∀ i : grid4.Coords, EltTy.bits .bf16 = 32 ∨ (Rect.block (s := S144x128) S144x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x128.size a ≤ S800000x128.size a
  hwx4_6 : ∀ i : grid4.Coords, EltTy.bits .bf16 = 32 ∨ (Rect.block (s := S800000x128) S8000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S144x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S8000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S144x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S8000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S8000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S144x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v98) S8000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v12) S5000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v109) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S3x144x128 : Shape := ⟨3, ![3, 144, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S800000x144 : Shape := ⟨2, ![800000, 144]⟩
abbrev S1x144x128 : Shape := ⟨3, ![1, 144, 128]⟩
abbrev S144x128 : Shape := ⟨2, ![144, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S3x144x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000x1, .f32⟩
  | 15 => ⟨S_, .f32⟩
  | 16 => ⟨S50000x1, .f32⟩
  | 17 => ⟨S800000x1, .i32⟩
  | 18 => ⟨S50000x1, .f32⟩
  | 19 => ⟨S_, .f32⟩
  | 20 => ⟨S50000x1, .f32⟩
  | 21 => ⟨S50000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x144, .f32⟩
  | 32 => ⟨S1x144x128, .f32⟩
  | 33 => ⟨S144x128, .f32⟩
  | 34 => ⟨S800000x128, .f32⟩
  | 35 => ⟨S1x128, .f32⟩
  | 36 => ⟨S128, .f32⟩
  | 37 => ⟨S1x128, .f32⟩
  | 38 => ⟨S800000x128, .f32⟩
  | 39 => ⟨S800000x128, .f32⟩
  | 40 => ⟨S_, .f32⟩
  | 41 => ⟨S800000x128, .f32⟩
  | 42 => ⟨S800000x128, .f32⟩
  | 43 => ⟨S1x128x128, .f32⟩
  | 44 => ⟨S128x128, .f32⟩
  | 45 => ⟨S800000x128, .f32⟩
  | 46 => ⟨S1x128, .f32⟩
  | 47 => ⟨S128, .f32⟩
  | 48 => ⟨S1x128, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x144, .f32⟩
  | 76 => ⟨S1x144x128, .f32⟩
  | 77 => ⟨S144x128, .f32⟩
  | 78 => ⟨S800000x128, .f32⟩
  | 79 => ⟨S1x128, .f32⟩
  | 80 => ⟨S128, .f32⟩
  | 81 => ⟨S1x128, .f32⟩
  | 82 => ⟨S800000x128, .f32⟩
  | 83 => ⟨S800000x128, .f32⟩
  | 84 => ⟨S_, .f32⟩
  | 85 => ⟨S800000x128, .f32⟩
  | 86 => ⟨S800000x128, .f32⟩
  | 87 => ⟨S1x128x128, .f32⟩
  | 88 => ⟨S128x128, .f32⟩
  | 89 => ⟨S800000x128, .f32⟩
  | 90 => ⟨S1x128, .f32⟩
  | 91 => ⟨S128, .f32⟩
  | 92 => ⟨S1x128, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S800000x144, .f32⟩
  | 120 => ⟨S1x144x128, .f32⟩
  | 121 => ⟨S144x128, .f32⟩
  | 122 => ⟨S800000x128, .f32⟩
  | 123 => ⟨S1x128, .f32⟩
  | 124 => ⟨S128, .f32⟩
  | 125 => ⟨S1x128, .f32⟩
  | 126 => ⟨S800000x128, .f32⟩
  | 127 => ⟨S800000x128, .f32⟩
  | _ => ⟨S50000x128, .f32⟩

abbrev hbmTy0_1 (i : Nat) : BufTy := match i % 128 with
  | 0 => ⟨S_, .f32⟩
  | 1 => ⟨S800000x128, .f32⟩
  | 2 => ⟨S800000x128, .f32⟩
  | 3 => ⟨S1x128x128, .f32⟩
  | 4 => ⟨S128x128, .f32⟩
  | 5 => ⟨S800000x128, .f32⟩
  | 6 => ⟨S1x128, .f32⟩
  | 7 => ⟨S128, .f32⟩
  | 8 => ⟨S1x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x128, .f32⟩
  | 16 => ⟨S50000x128, .f32⟩
  | 17 => ⟨S1x128x128, .f32⟩
  | 18 => ⟨S128x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_4 : Ref sig .tc := ⟨.hbm, 66, rfl⟩
abbrev main_v49 : Ref sig .tc := ⟨.hbm, 67, rfl⟩
abbrev main_v50 : Ref sig .tc := ⟨.hbm, 68, rfl⟩
abbrev main_c_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call1_cst : Ref sig .tc := ⟨.hbm, 84, rfl⟩
abbrev main_call1_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_7 : Ref sig .tc := ⟨.hbm, 110, rfl⟩
abbrev main_v88 : Ref sig .tc := ⟨.hbm, 111, rfl⟩
abbrev main_v89 : Ref sig .tc := ⟨.hbm, 112, rfl⟩
abbrev main_c_8 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_call2_cst : Ref sig .tc := ⟨.hbm, 128, rfl⟩
abbrev main_call2_v0 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_9 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  concatenates_S800000x128_S800000x16_S800000x144_d1 : Shape.Concatenates [S800000x128, S800000x16] S800000x144 1
  slices_S3x144x128_S1x144x128_0_0_0 : S3x144x128.Slices ![0, 0, 0] S1x144x128
  shapeCasts_S1x144x128_S144x128 : S1x144x128.ShapeCasts S144x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S3x144x128_S1x144x128_1_0_0 : S3x144x128.Slices ![1, 0, 0] S1x144x128
  slices_S3x128_S1x128_1_0 : S3x128.Slices ![1, 0] S1x128
  slices_S3x128x128_S1x128x128_1_0_0 : S3x128x128.Slices ![1, 0, 0] S1x128x128
  slices_S3x144x128_S1x144x128_2_0_0 : S3x144x128.Slices ![2, 0, 0] S1x144x128
  slices_S3x128_S1x128_2_0 : S3x128.Slices ![2, 0] S1x128
  slices_S3x128x128_S1x128x128_2_0_0 : S3x128x128.Slices ![2, 0, 0] S1x128x128
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S800000x144_S144x128_S800000x128_1_0_0_1_n_n_wf : DotDims.WF S800000x144 S144x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The run of the idealized kernel program, with its result named.

  The program is six kernel launches among stretches of host operations. Every weakly fair execution terminates without a
  fault, and the final memory holds, at every buffer that outlives the launches, the contents obtained by folding the
  host stretches and the launches' write-backs over the launch memory. Read at the result buffer this names the
  program's result; read at an argument it gives back the argument.
-/
import proofs.«161121_j12876311953727_2_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents there and the
    arguments end as launched. -/
theorem valued : θ_run defs (onTc (τ := τ) (main (F := F))) ⟨m, fun _ => 0, ρ⟩ (fun r => ∀ c : Dev nD,
      r.2.mem ((c.tc : Thread nD τ).loc main_v109) = W12 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v109 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Valued

end
-- ==== Proof.KParams.lean ====
/-
  What the kernel program's host operations compute from the argument arrays, named.

  From the edge list: the source and destination columns, the source column with negative entries wrapped by the node
  count (the gather's index column), the in-degree of every node as a scatter-add of ones, clipped below at one, and the
  reciprocal of that laid along the 128 lanes. From the stacked parameters: each layer's slice, the biases as rows of one.
  The gather of the rows of a node array by source, and the scatter-add of an edge array by destination.
-/
import proofs.«161121_j12876311953727_2_alg».proof.KernelIdeal
import proofs.«161121_j12876311953727_2_alg».proof.Proof.Gen.KernelIdeal
import Idealize.ShloMosaic.PureOps.Ideal

noncomputable section

namespace Cert.KernelIdeal.Par

open Cert.KernelIdeal Cert.KernelIdeal.Gen Idealize.ShloMosaic

variable (a0 : FVec Ideal S50000x128 .f32) (a1 : IVec S2x800000 32) (a2 : FVec Ideal S800000x16 .f32)
  (a3 : FVec Ideal S3x144x128 .f32) (a4 : FVec Ideal S3x128 .f32) (a5 : FVec Ideal S3x128x128 .f32) (a6 : FVec Ideal S3x128 .f32)
  (a7 : FVec Ideal S3x128x128 .f32) (a8 : FVec Ideal S3x128 .f32)

/-- The source node of every edge. -/
def src : IVec S800000 32 :=
  shapeCast S800000 (extractStridedSlice S1x800000 ![0, 0] a1 slices_S2x800000_S1x800000_0_0) shapeCasts_S1x800000_S800000
/-- The destination node of every edge. -/
def dst : IVec S800000 32 :=
  shapeCast S800000 (extractStridedSlice S1x800000 ![1, 0] a1 slices_S2x800000_S1x800000_1_0) shapeCasts_S1x800000_S800000
/-- The gather's index column: the source, a negative entry wrapped by the node count. -/
def ig : IVec S800000x1 32 :=
  broadcastInDim S800000x1 ![0] bcast_S800000_S800000x1_0
    (select (cmpi .slt (src a1) (broadcastInDim S800000 ![] bcast_S_S800000 (constantI S_ 32 0#32)))
      (addi (src a1) (broadcastInDim S800000 ![] bcast_S_S800000 (constantI S_ 32 50000#32))) (src a1))
/-- The scatter's index column: the destination. -/
def is : IVec S800000x1 32 := broadcastInDim S800000x1 ![0] bcast_S800000_S800000x1_0 (dst a1)
/-- The in-degrees, clipped below at one. -/
def dn1 : FVec Ideal S50000x1 .f32 :=
  maximumf
    (Host.scatterAdd scatter_S50000x1_S800000x1_S800000x1_1_0_0_1
      (broadcastInDim S50000x1 ![] bcast_S_S50000x1 (constant S_ .f32 0x00000000#32)) (is a1)
      (broadcastInDim S800000x1 ![] bcast_S_S800000x1 (constant S_ .f32 0x3F800000#32)))
    (broadcastInDim S50000x1 ![] bcast_S_S50000x1 (constant S_ .f32 0x3F800000#32))
/-- Their reciprocals along the lanes. -/
def dinv : FVec Ideal S50000x128 .f32 :=
  broadcastInDim S50000x128 ![0, 1] bcast_S50000x1_S50000x128_0_1
    (Host.divf (broadcastInDim S50000x1 ![] bcast_S_S50000x1 (constant S_ .f32 0x3F800000#32)) (dn1 a1))
/-- The edge features. -/
def eab : FVec Ideal S800000x16 .bf16 := truncf .bf16 a2 bitsLt_bf16_f32

/-- Layer 0's first weights … -/
def w1b0 : FVec Ideal S144x128 .bf16 :=
  truncf .bf16 (shapeCast S144x128 (extractStridedSlice S1x144x128 ![0, 0, 0] a3 slices_S3x144x128_S1x144x128_0_0_0) shapeCasts_S1x144x128_S144x128) bitsLt_bf16_f32
/-- … first bias, as a row … -/
def b1r0 : FVec Ideal S1x128 .f32 :=
  shapeCast S1x128 (shapeCast S128 (extractStridedSlice S1x128 ![0, 0] a4 slices_S3x128_S1x128_0_0) shapeCasts_S1x128_S128) shapeCasts_S128_S1x128
/-- … second weights … -/
def w2b0 : FVec Ideal S128x128 .bf16 :=
  truncf .bf16 (shapeCast S128x128 (extractStridedSlice S1x128x128 ![0, 0, 0] a5 slices_S3x128x128_S1x128x128_0_0_0) shapeCasts_S1x128x128_S128x128) bitsLt_bf16_f32
/-- … second bias, as a row … -/
def b2r0 : FVec Ideal S1x128 .f32 :=
  shapeCast S1x128 (shapeCast S128 (extractStridedSlice S1x128 ![0, 0] a6 slices_S3x128_S1x128_0_0) shapeCasts_S1x128_S128) shapeCasts_S128_S1x128
/-- … update weights … -/
def wsb0 : FVec Ideal S128x128 .bf16 :=
  truncf .bf16 (shapeCast S128x128 (extractStridedSlice S1x128x128 ![0, 0, 0] a7 slices_S3x128x128_S1x128x128_0_0_0) shapeCasts_S1x128x128_S128x128) bitsLt_bf16_f32
/-- … and update bias, as a row. -/
def bsr0 : FVec Ideal S1x128 .f32 :=
  shapeCast S1x128 (shapeCast S128 (extractStridedSlice S1x128 ![0, 0] a8 slices_S3x128_S1x128_0_0) shapeCasts_S1x128_S128) shapeCasts_S128_S1x128

/-- Layer 1's first weights … -/
def w1b1 : FVec Ideal S144x128 .bf16 :=
  truncf .bf16 (shapeCast S144x128 (extractStridedSlice S1x144x128 ![1, 0, 0] a3 slices_S3x144x128_S1x144x128_1_0_0) shapeCasts_S1x144x128_S144x128) bitsLt_bf16_f32
/-- … first bias, as a row … -/
def b1r1 : FVec Ideal S1x128 .f32 :=
  shapeCast S1x128 (shapeCast S128 (extractStridedSlice S1x128 ![1, 0] a4 slices_S3x128_S1x128_1_0) shapeCasts_S1x128_S128) shapeCasts_S128_S1x128
/-- … second weights … -/
def w2b1 : FVec Ideal S128x128 .bf16 :=
  truncf .bf16 (shapeCast S128x128 (extractStridedSlice S1x128x128 ![1, 0, 0] a5 slices_S3x128x128_S1x128x128_1_0_0) shapeCasts_S1x128x128_S128x128) bitsLt_bf16_f32
/-- … second bias, as a row … -/
def b2r1 : FVec Ideal S1x128 .f32 :=
  shapeCast S1x128 (shapeCast S128 (extractStridedSlice S1x128 ![1, 0] a6 slices_S3x128_S1x128_1_0) shapeCasts_S1x128_S128) shapeCasts_S128_S1x128
/-- … update weights … -/
def wsb1 : FVec Ideal S128x128 .bf16 :=
  truncf .bf16 (shapeCast S128x128 (extractStridedSlice S1x128x128 ![1, 0, 0] a7 slices_S3x128x128_S1x128x128_1_0_0) shapeCasts_S1x128x128_S128x128) bitsLt_bf16_f32
/-- … and update bias, as a row. -/
def bsr1 : FVec Ideal S1x128 .f32 :=
  shapeCast S1x128 (shapeCast S128 (extractStridedSlice S1x128 ![1, 0] a8 slices_S3x128_S1x128_1_0) shapeCasts_S1x128_S128) shapeCasts_S128_S1x128

/-- Layer 2's first weights … -/
def w1b2 : FVec Ideal S144x128 .bf16 :=
  truncf .bf16 (shapeCast S144x128 (extractStridedSlice S1x144x128 ![2, 0, 0] a3 slices_S3x144x128_S1x144x128_2_0_0) shapeCasts_S1x144x128_S144x128) bitsLt_bf16_f32
/-- … first bias, as a row … -/
def b1r2 : FVec Ideal S1x128 .f32 :=
  shapeCast S1x128 (shapeCast S128 (extractStridedSlice S1x128 ![2, 0] a4 slices_S3x128_S1x128_2_0) shapeCasts_S1x128_S128) shapeCasts_S128_S1x128
/-- … second weights … -/
def w2b2 : FVec Ideal S128x128 .bf16 :=
  truncf .bf16 (shapeCast S128x128 (extractStridedSlice S1x128x128 ![2, 0, 0] a5 slices_S3x128x128_S1x128x128_2_0_0) shapeCasts_S1x128x128_S128x128) bitsLt_bf16_f32
/-- … second bias, as a row … -/
def b2r2 : FVec Ideal S1x128 .f32 :=
  shapeCast S1x128 (shapeCast S128 (extractStridedSlice S1x128 ![2, 0] a6 slices_S3x128_S1x128_2_0) shapeCasts_S1x128_S128) shapeCasts_S128_S1x128
/-- … update weights … -/
def wsb2 : FVec Ideal S128x128 .bf16 :=
  truncf .bf16 (shapeCast S128x128 (extractStridedSlice S1x128x128 ![2, 0, 0] a7 slices_S3x128x128_S1x128x128_2_0_0) shapeCasts_S1x128x128_S128x128) bitsLt_bf16_f32
/-- … and update bias, as a row. -/
def bsr2 : FVec Ideal S1x128 .f32 :=
  shapeCast S1x128 (shapeCast S128 (extractStridedSlice S1x128 ![2, 0] a8 slices_S3x128_S1x128_2_0) shapeCasts_S1x128_S128) shapeCasts_S128_S1x128

/-- The rows of a node array gathered by source. -/
def gath (X : FVec Ideal S50000x128 .f32) : FVec Ideal S800000x128 .bf16 :=
  Host.gather gather_S50000x128_S800000x1_S800000x128_1_0_n_n_0_1_1128 (truncf .bf16 X bitsLt_bf16_f32) (ig a1)
/-- An edge array scatter-added by destination into zeros. -/
def scat (H : FVec Ideal S800000x128 .bf16) : FVec Ideal S50000x128 .f32 :=
  Host.scatterAdd scatter_S50000x128_S800000x1_S800000x128_1_0_0_1
    (broadcastInDim S50000x128 ![] bcast_S_S50000x128 (constant S_ .f32 0x00000000#32)) (is a1) (extf .f32 H bitsLt_bf16_f32)

end Cert.KernelIdeal.Par

end
-- ==== Proof.LayerSpec.lean ====
/-
  One message-passing layer, row by row, over the extended reals.

  An edge carries a row of 128 node features and a row of 16 edge features. Its message is a two-layer perceptron of the
  144 joined features: a hidden row  h_k = max(∑_i z_i · W1[i,k] + b1_k, 0)  and the output  ∑_k h_k · W2[k,j] + b2_j.
  The sum over the 144 joined features is the sum over the 128 node features plus the sum over the 16 edge features
  (a finite sum over a disjoint union; addition of extended reals is commutative and associative, so nothing has to be
  finite). A node's new row is  (∑_k x_k · Ws[k,j] + bs_j) + a_j · d,  where a is the sum of the incoming messages and d
  the reciprocal of the in-degree clipped below at 1; multiplying by the reciprocal of a non-zero number is dividing by it.
-/
import Mathlib
import Idealize.ShloMosaic.PureOps.Ideal
import Idealize.ShloMosaic.Lib.ValueIdx
import Idealize.ShloMosaic.Lib.IdealHost

noncomputable section

open scoped BigOperators

namespace Cert.Layer

open Idealize.ShloMosaic Idealize.ShloMosaic.ValueIdx

/-- Feature i of the node part, among the 144 joined features. -/
def inL (i : Fin 128) : Fin 144 := ⟨i.val, by have := i.isLt; omega⟩
/-- Feature i of the edge part, among the 144 joined features. -/
def inR (i : Fin 16) : Fin 144 := ⟨128 + i.val, by have := i.isLt; omega⟩

/-- A sum over the 144 joined features is the sum over the node part plus the sum over the edge part. -/
theorem sum_joined {M : Type*} [AddCommMonoid M] (f : Fin 144 → M) :
    ∑ i : Fin 144, f i = ∑ i : Fin 128, f (inL i) + ∑ i : Fin 16, f (inR i) :=
  Fin.sum_univ_add (a := 128) (b := 16) f

/-- The hidden row of an edge, the first product split into its node part and its edge part. -/
def hid (xr : Fin 128 → EReal) (er : Fin 16 → EReal) (w1 : Fin 144 → Fin 128 → EReal) (b1 : Fin 128 → EReal)
    (k : Fin 128) : EReal :=
  max ((∑ i : Fin 128, xr i * w1 (inL i) k + ∑ i : Fin 16, er i * w1 (inR i) k) + b1 k) 0

/-- The message of an edge at lane j, from its hidden row. -/
def msg (h : Fin 128 → EReal) (w2 : Fin 128 → Fin 128 → EReal) (b2 : Fin 128 → EReal) (j : Fin 128) : EReal :=
  ∑ k : Fin 128, h k * w2 k j + b2 j

/-- A node's new row at lane j from its own row, the summed messages `a` and the factor `d`. -/
def upd (xr : Fin 128 → EReal) (ws : Fin 128 → Fin 128 → EReal) (bs : Fin 128 → EReal) (a d : EReal) (j : Fin 128) : EReal :=
  (∑ k : Fin 128, xr k * ws k j + bs j) + a * d

/-- Multiplying by the reciprocal of a count clipped below at one is dividing by it: the clipped count is at least one,
    hence not zero (it may even be +∞: both sides are then zero). -/
theorem mul_recip_clip (a c : EReal) :
    a * Ideal.div (Ideal.ofBits .f32 0x3F800000#32) (max c (Ideal.ofBits .f32 0x3F800000#32))
      = Ideal.div a (max c (Ideal.ofBits .f32 0x3F800000#32)) := by
  rw [Ideal.ofBits_one_f32]
  exact Ideal.mul_one_div (ne_of_gt (lt_of_lt_of_le zero_lt_one (le_max_right c 1)))

/-! ## Whole arrays -/

/-- The messages of all E edges: row e from row e of the gathered node features and of the edge features. -/
def msgArr {E : Nat} (xs : (⟨2, ![E, 128]⟩ : Shape).Idx → EReal) (ea : (⟨2, ![E, 16]⟩ : Shape).Idx → EReal)
    (w1 : Fin 144 → Fin 128 → EReal) (b1 : Fin 128 → EReal) (w2 : Fin 128 → Fin 128 → EReal) (b2 : Fin 128 → EReal) :
    (⟨2, ![E, 128]⟩ : Shape).Idx → EReal :=
  fun i => msg (hid (fun k => xs (ix2 (i 0) k)) (fun k => ea (ix2 (i 0) k)) w1 b1) w2 b2 (i 1)

/-- The new rows of all N nodes. -/
def updArr {N : Nat} (X : (⟨2, ![N, 128]⟩ : Shape).Idx → EReal) (ws : Fin 128 → Fin 128 → EReal) (bs : Fin 128 → EReal)
    (A D : (⟨2, ![N, 128]⟩ : Shape).Idx → EReal) : (⟨2, ![N, 128]⟩ : Shape).Idx → EReal :=
  fun i => upd (fun k => X (ix2 (i 0) k)) ws bs (A i) (D i) (i 1)

end Cert.Layer

end
-- ==== Proof.KLayer.lean ====
/-
  One layer of the kernel program as a function of the node features, and the three layers one after the other.

  A layer gathers the rows of the node features by source, forms every edge's message from the gathered row and the edge's
  features (the kernel's split form of the first product), scatter-adds the messages by destination, and updates every
  node's row with its summed messages times the reciprocal clipped in-degree.
-/
import proofs.«161121_j12876311953727_2_alg».proof.Proof.KParams
import proofs.«161121_j12876311953727_2_alg».proof.Proof.LayerSpec

noncomputable section

namespace Cert.KernelIdeal.KL

open Cert.KernelIdeal Idealize.ShloMosaic Idealize.ShloMosaic.ValueIdx Cert.Layer

variable (a1 : IVec S2x800000 32) (a2 : FVec Ideal S800000x16 .f32)
  (a3 : FVec Ideal S3x144x128 .f32) (a4 : FVec Ideal S3x128 .f32) (a5 : FVec Ideal S3x128x128 .f32) (a6 : FVec Ideal S3x128 .f32)
  (a7 : FVec Ideal S3x128x128 .f32) (a8 : FVec Ideal S3x128 .f32)

/-- Layer 0's messages from node features X. -/
def msg0 (X : FVec Ideal S50000x128 .f32) : FVec Ideal S800000x128 .bf16 :=
  msgArr (E := 800000) (Par.gath a1 X) (Par.eab a2) (fun a k => Par.w1b0 a3 (ix2 a k)) (fun k => Par.b1r0 a4 (ix2 0 k))
    (fun a k => Par.w2b0 a5 (ix2 a k)) (fun k => Par.b2r0 a6 (ix2 0 k))
/-- Layer 0: the new node features from X. -/
def layer0 (X : FVec Ideal S50000x128 .f32) : FVec Ideal S50000x128 .f32 :=
  updArr (N := 50000) X (fun a k => Par.wsb0 a7 (ix2 a k)) (fun k => Par.bsr0 a8 (ix2 0 k))
    (Par.scat a1 (msg0 a1 a2 a3 a4 a5 a6 X)) (Par.dinv a1)

/-- Layer 1's messages from node features X. -/
def msg1 (X : FVec Ideal S50000x128 .f32) : FVec Ideal S800000x128 .bf16 :=
  msgArr (E := 800000) (Par.gath a1 X) (Par.eab a2) (fun a k => Par.w1b1 a3 (ix2 a k)) (fun k => Par.b1r1 a4 (ix2 0 k))
    (fun a k => Par.w2b1 a5 (ix2 a k)) (fun k => Par.b2r1 a6 (ix2 0 k))
/-- Layer 1: the new node features from X. -/
def layer1 (X : FVec Ideal S50000x128 .f32) : FVec Ideal S50000x128 .f32 :=
  updArr (N := 50000) X (fun a k => Par.wsb1 a7 (ix2 a k)) (fun k => Par.bsr1 a8 (ix2 0 k))
    (Par.scat a1 (msg1 a1 a2 a3 a4 a5 a6 X)) (Par.dinv a1)

/-- Layer 2's messages from node features X. -/
def msg2 (X : FVec Ideal S50000x128 .f32) : FVec Ideal S800000x128 .bf16 :=
  msgArr (E := 800000) (Par.gath a1 X) (Par.eab a2) (fun a k => Par.w1b2 a3 (ix2 a k)) (fun k => Par.b1r2 a4 (ix2 0 k))
    (fun a k => Par.w2b2 a5 (ix2 a k)) (fun k => Par.b2r2 a6 (ix2 0 k))
/-- Layer 2: the new node features from X. -/
def layer2 (X : FVec Ideal S50000x128 .f32) : FVec Ideal S50000x128 .f32 :=
  updArr (N := 50000) X (fun a k => Par.wsb2 a7 (ix2 a k)) (fun k => Par.bsr2 a8 (ix2 0 k))
    (Par.scat a1 (msg2 a1 a2 a3 a4 a5 a6 X)) (Par.dinv a1)

end Cert.KernelIdeal.KL

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KEdge0.lean ====
/-
  Kernel launch 0 (the edge perceptron), as one function of the arrays it finds.

  The launch walks 100 blocks of 8000 edges. At a block it loads the block's rows of gathered node features and of edge
  features and the whole weight and bias arrays, and stores, for each edge of the block, the message of that edge: the
  two products of the first layer (node part and edge part of the joined features) added, the bias added, clipped below at
  zero, multiplied by the second weights, the second bias added. A message depends only on its own edge's rows, so
  block t of the result is rows 8000·t … 8000·t + 7999 of the array of all messages, and the 100 blocks tile the array.
-/
import proofs.«161121_j12876311953727_2_alg».proof.Proof.Gen.KernelIdeal.Frame
import proofs.«161121_j12876311953727_2_alg».proof.Proof.LayerSpec
import proofs.«161121_j12876311953727_2_alg».proof.Proof.LibDotRows
import Idealize.ShloMosaic.Lib.Pipeline.Value
import Idealize.ShloMosaic.Lib.ValueLayout

set_option maxRecDepth 16384

noncomputable section

namespace Cert.KernelIdeal.Edge0

open Cert.KernelIdeal Cert.KernelIdeal.Gen Idealize.ShloMosaic Idealize.ShloMosaic.TcCoe Idealize.ShloMosaic.ValueIdx
open Idealize.SL.Sem Cert.Layer
open Idealize.ShloMosaic.Pipeline (Dat)
open scoped BigOperators

theorem hz : (![0, 0] : Fin 2 → Nat) = fun _ => 0 := funext fun a => by fin_cases a <;> rfl

theorem dotA : dot_S8000x128_S128x128_S8000x128_1_0_0_1_n_n = DotDims.plain 8000 128 128 := rfl
theorem dotB : dot_S8000x16_S16x128_S8000x128_1_0_0_1_n_n = DotDims.plain 8000 16 128 := rfl

/-- The body's arithmetic at row p, lane q of a block. -/
theorem pay_apply (v0 : Vec Ideal S8000x128 .bf16) (v2 : Vec Ideal S8000x16 .bf16) (v4 : Vec Ideal S128x128 .bf16)
    (v6 : Vec Ideal S16x128 .bf16) (v11 : Vec Ideal S1x128 .f32) (v18 : Vec Ideal S128x128 .bf16) (v21 : Vec Ideal S1x128 .f32)
    (p : Fin 8000) (q : Fin 128) :
    k0_pay1 (F := Ideal) v0 v2 v4 v6 v11 v18 v21 (ix2 p q)
      = ∑ k : Fin 128, max ((∑ i : Fin 128, v0 (ix2 p i) * v4 (ix2 i k) + ∑ i : Fin 16, v2 (ix2 p i) * v6 (ix2 i k))
            + v11 (ix2 0 k)) 0 * v18 (ix2 k q) + v21 (ix2 0 q) := by
  unfold k0_pay1
  simp only [shapeCast_self, dotA, dotB]
  rw [truncf_apply, addf_apply, Cert.Lib.DotRows.matmul_plain_apply, broadcastTo_1b_ab_apply]
  congr 1
  refine Finset.sum_congr rfl fun k _ => ?_
  congr 1
  rw [truncf_apply, maximumf_apply, addf_apply, addf_apply, Cert.Lib.DotRows.matmul_plain_apply,
    Cert.Lib.DotRows.matmul_plain_apply, broadcastTo_1b_ab_apply, broadcast_apply, Ideal.ofBits_def, Ideal.ofBits_zero_f32]

/-- The first 128 rows of the weight block are the node part of the joined features … -/
theorem ld_top (x2 : Vec Ideal S144x128 .bf16) (i k : Fin 128) : View.ld x2 r0_2 (ix2 i k) = x2 (ix2 (inL i) k) := by
  show x2 (r0_2.idx (ix2 i k)) = _
  refine congrArg x2 (funext fun a => Fin.ext ?_)
  match a with
  | ⟨0, _⟩ => show 0 + 1 * i.val = i.val; omega
  | ⟨1, _⟩ => show 0 + 1 * k.val = k.val; omega

/-- … and the last 16 rows the edge part. -/
theorem ld_bot (x2 : Vec Ideal S144x128 .bf16) (i : Fin 16) (k : Fin 128) : View.ld x2 r0_3 (ix2 i k) = x2 (ix2 (inR i) k) := by
  show x2 (r0_3.idx (ix2 i k)) = _
  refine congrArg x2 (funext fun a => Fin.ext ?_)
  match a with
  | ⟨0, _⟩ => show 128 + 1 * i.val = 128 + i.val; omega
  | ⟨1, _⟩ => show 0 + 1 * k.val = k.val; omega

/-- What the body leaves in the output block is the array of the block's messages. -/
theorem out_eq (x0 : Vec Ideal S8000x128 .bf16) (x1 : Vec Ideal S8000x16 .bf16) (x2 : Vec Ideal S144x128 .bf16)
    (x3 : Vec Ideal S1x128 .f32) (x4 : Vec Ideal S128x128 .bf16) (x5 : Vec Ideal S1x128 .f32) :
    out0_6 (F := Ideal) x0 x1 x2 x3 x4 x5
      = msgArr (E := 8000) x0 x1 (fun a k => x2 (ix2 a k)) (fun k => x3 (ix2 0 k)) (fun a k => x4 (ix2 a k)) (fun k => x5 (ix2 0 k)) := by
  unfold out0_6
  rw [View.canon_unit_zero hz]
  simp only [View.ld_unit_zero (S := S8000x128) hz, View.ld_unit_zero (S := S8000x16) hz,
    View.ld_unit_zero (S := S1x128) hz, View.ld_unit_zero (S := S128x128) hz]
  have hT : View.ld x2 r0_2 = fun y : S128x128.Idx => x2 (ix2 (inL (y 0)) (y 1)) := funext fun y => by
    obtain ⟨i, k, rfl⟩ : ∃ (i k : Fin 128), y = ix2 i k := ⟨y 0, y 1, eq_ix2 y⟩
    exact ld_top x2 i k
  have hB : View.ld x2 r0_3 = fun y : S16x128.Idx => x2 (ix2 (inR (y 0)) (y 1)) := funext fun y => by
    obtain ⟨i, k, rfl⟩ : ∃ (i : Fin 16) (k : Fin 128), y = ix2 i k := ⟨y 0, y 1, eq_ix2 y⟩
    exact ld_bot x2 i k
  rw [hT, hB]
  funext j
  obtain ⟨p, q, rfl⟩ : ∃ (p : Fin 8000) (q : Fin 128), j = ix2 p q := ⟨j 0, j 1, eq_ix2 j⟩
  refine (pay_apply _ _ _ _ _ _ _ p q).trans ?_
  rfl

variable (V : (c : Dev nD) → (b : Ref sig .tc) → Buf (Elt Ideal) ((c : Thread nD τ).loc b))

/-- The printed index maps over the grid: the three blocked windows sit at block t, the four whole windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 100 := lt_of_lt_of_eq t.isLt N_0

/-- Row r of the whole arrays, for a row of block t. -/
def row (t : Fin cfg0.N) (p : Fin 8000) : Fin 800000 := ⟨t.val * 8000 + p.val, by have := t_lt t; have := p.isLt; omega⟩

theorem blk0 (c : Dev nD) (t : Fin cfg0.N) (p : Fin 8000) (k : Fin 128) :
    iblk0 V c 0 t (ix2 p k) = V c main_v21 (ix2 (row t p) k) := by
  show V c main_v21 (((cfg0.win 0).blk t).view.emb (ix2 p k)) = _
  refine congrArg (V c main_v21) (funext fun a => Fin.ext ?_)
  obtain ⟨e0, e1, -⟩ := idx_facts t
  match a with
  | ⟨0, _⟩ => show win0_0.index t (0 : Fin 2) * 8000 + 1 * p.val = t.val * 8000 + p.val; rw [e0]; omega
  | ⟨1, _⟩ => show win0_0.index t (1 : Fin 2) * 128 + 1 * k.val = k.val; rw [e1]; omega

theorem blk1 (c : Dev nD) (t : Fin cfg0.N) (p : Fin 8000) (k : Fin 16) :
    iblk0 V c 1 t (ix2 p k) = V c main_v13 (ix2 (row t p) k) := by
  show V c main_v13 (((cfg0.win 1).blk t).view.emb (ix2 p k)) = _
  refine congrArg (V c main_v13) (funext fun a => Fin.ext ?_)
  obtain ⟨-, -, e0, e1, -⟩ := idx_facts t
  match a with
  | ⟨0, _⟩ => show win0_1.index t (0 : Fin 2) * 8000 + 1 * p.val = t.val * 8000 + p.val; rw [e0]; omega
  | ⟨1, _⟩ => show win0_1.index t (1 : Fin 2) * 16 + 1 * k.val = k.val; rw [e1]; omega

theorem blk2 (c : Dev nD) (t : Fin cfg0.N) (a : Fin 144) (k : Fin 128) :
    iblk0 V c 2 t (ix2 a k) = V c main_v24 (ix2 a k) := by
  show V c main_v24 (((cfg0.win 2).blk t).view.emb (ix2 a k)) = _
  refine congrArg (V c main_v24) (funext fun b => Fin.ext ?_)
  obtain ⟨-, -, -, -, e0, e1, -⟩ := idx_facts t
  match b with
  | ⟨0, _⟩ => show win0_2.index t (0 : Fin 2) * 144 + 1 * a.val = a.val; rw [e0]; omega
  | ⟨1, _⟩ => show win0_2.index t (1 : Fin 2) * 128 + 1 * k.val = k.val; rw [e1]; omega

theorem blk3 (c : Dev nD) (t : Fin cfg0.N) (k : Fin 128) :
    iblk0 V c 3 t (ix2 0 k) = V c main_v32 (ix2 0 k) := by
  show V c main_v32 (((cfg0.win 3).blk t).view.emb (ix2 0 k)) = _
  refine congrArg (V c main_v32) (funext fun b => Fin.ext ?_)
  obtain ⟨-, -, -, -, -, -, e0, e1, -⟩ := idx_facts t
  match b with
  | ⟨0, _⟩ => show win0_3.index t (0 : Fin 2) * 1 + 1 * 0 = 0; rw [e0]
  | ⟨1, _⟩ => show win0_3.index t (1 : Fin 2) * 128 + 1 * k.val = k.val; rw [e1]; omega

theorem blk4 (c : Dev nD) (t : Fin cfg0.N) (a k : Fin 128) :
    iblk0 V c 4 t (ix2 a k) = V c main_v29 (ix2 a k) := by
  show V c main_v29 (((cfg0.win 4).blk t).view.emb (ix2 a k)) = _
  refine congrArg (V c main_v29) (funext fun b => Fin.ext ?_)
  obtain ⟨-, -, -, -, -, -, -, -, e0, e1, -⟩ := idx_facts t
  match b with
  | ⟨0, _⟩ => show win0_4.index t (0 : Fin 2) * 128 + 1 * a.val = a.val; rw [e0]; omega
  | ⟨1, _⟩ => show win0_4.index t (1 : Fin 2) * 128 + 1 * k.val = k.val; rw [e1]; omega

theorem blk5 (c : Dev nD) (t : Fin cfg0.N) (k : Fin 128) :
    iblk0 V c 5 t (ix2 0 k) = V c main_v33 (ix2 0 k) := by
  show V c main_v33 (((cfg0.win 5).blk t).view.emb (ix2 0 k)) = _
  refine congrArg (V c main_v33) (funext fun b => Fin.ext ?_)
  obtain ⟨-, -, -, -, -, -, -, -, -, -, e0, e1, -⟩ := idx_facts t
  match b with
  | ⟨0, _⟩ => show win0_5.index t (0 : Fin 2) * 1 + 1 * 0 = 0; rw [e0]
  | ⟨1, _⟩ => show win0_5.index t (1 : Fin 2) * 128 + 1 * k.val = k.val; rw [e1]; omega

/-- All the messages, from the arrays the launch finds. -/
def G (c : Dev nD) : S800000x128.Idx → EReal :=
  msgArr (E := 800000) (V c main_v21) (V c main_v13) (fun a k => V c main_v24 (ix2 a k)) (fun k => V c main_v32 (ix2 0 k))
    (fun a k => V c main_v29 (ix2 a k)) (fun k => V c main_v33 (ix2 0 k))

/-- What block t writes back is block t of all the messages. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6, out_eq]
  funext j
  obtain ⟨p, q, rfl⟩ : ∃ (p : Fin 8000) (q : Fin 128), j = ix2 p q := ⟨j 0, j 1, eq_ix2 j⟩
  have hemb : ((cfg0.win 6).blk t).view.emb (ix2 p q) = ix2 (row t p) q := by
    funext a; apply Fin.ext
    obtain ⟨-, -, -, -, -, -, -, -, -, -, -, -, e0, e1⟩ := idx_facts t
    match a with
    | ⟨0, _⟩ => show win0_6.index t (0 : Fin 2) * 8000 + 1 * p.val = t.val * 8000 + p.val; rw [e0]; omega
    | ⟨1, _⟩ => show win0_6.index t (1 : Fin 2) * 128 + 1 * q.val = q.val; rw [e1]; omega
  show msgArr (E := 8000) _ _ _ _ _ _ (ix2 p q) = G V c (((cfg0.win 6).blk t).view.emb (ix2 p q))
  rw [hemb]
  unfold G msgArr
  show msg (hid (fun k => iblk0 V c 0 t (ix2 p k)) (fun k => iblk0 V c 1 t (ix2 p k)) (fun a k => iblk0 V c 2 t (ix2 a k))
      (fun k => iblk0 V c 3 t (ix2 0 k))) (fun a k => iblk0 V c 4 t (ix2 a k)) (fun k => iblk0 V c 5 t (ix2 0 k)) q = _
  simp only [blk0, blk1, blk2, blk3, blk4, blk5]

theorem mem_blk (t : Fin cfg0.N) (i : S800000x128.Idx) :
    i ∈ ((cfg0.win 6).blk t).view.set ↔ ∀ a : Fin 2, win0_6.index t a * S8000x128.size a ≤ (i a).val ∧ (i a).val < win0_6.index t a * S8000x128.size a + S8000x128.size a := by
  show i ∈ ((View.whole main_v34).slice (win0_6.rect t)).set ↔ _
  rw [View.set_slice_whole, Rect.mem_set_unit]
  exact Iff.rfl

/-- The 100 blocks tile the array: row r lies in block r / 8000. -/
theorem cover (i : S800000x128.Idx) : ∃ t : Fin cfg0.N, (cfg0.win 6).flush t = true ∧ i ∈ ((cfg0.win 6).blk t).view.set := by
  have hi0 : (i 0).val < 800000 := (i 0).isLt
  have hi1 : (i 1).val < 128 := (i 1).isLt
  let t : Fin cfg0.N := ⟨(i 0).val / 8000, by rw [show cfg0.N = 100 from N_0]; omega⟩
  refine ⟨t, flush0_6 t, ?_⟩
  rw [mem_blk]
  obtain ⟨-, -, -, -, -, -, -, -, -, -, -, -, e0, e1⟩ := idx_facts t
  have ht : t.val = (i 0).val / 8000 := rfl
  intro a
  match a with
  | ⟨0, _⟩ => show win0_6.index t (0 : Fin 2) * 8000 ≤ (i 0).val ∧ (i 0).val < win0_6.index t (0 : Fin 2) * 8000 + 8000; rw [e0, ht]; omega
  | ⟨1, _⟩ => show win0_6.index t (1 : Fin 2) * 128 ≤ (i 1).val ∧ (i 1).val < win0_6.index t (1 : Fin 2) * 128 + 128; rw [e1]; omega

/-- After the launch the result array holds all the messages. -/
theorem final (c : Dev nD) : (dat0 V c).arrAt 6 cfg0.N = G V c :=
  (dat0 V c).arrAt_eq_of_cover 6 (G V c) (fun t _ => flushed_eq V c t) (cover)

end Cert.KernelIdeal.Edge0

end
-- ==== Proof.KSelf1.lean ====
/-
  Kernel launch 1 (the node update), as one function of the arrays it finds.

  The launch walks 10 blocks of 5000 nodes. At a block it loads the block's rows of the node features, of the summed
  messages and of the reciprocal degrees, and the whole weight and bias arrays, and stores for each node of the block its
  new row: the product with the weights, the bias added, the summed message times the reciprocal degree added. A new row
  depends only on its own node's rows, so block t of the result is rows 5000·t … 5000·t + 4999 of the array of all new
  rows, and the 10 blocks tile the array.
-/
import proofs.«161121_j12876311953727_2_alg».proof.Proof.Gen.KernelIdeal.Frame
import proofs.«161121_j12876311953727_2_alg».proof.Proof.LayerSpec
import proofs.«161121_j12876311953727_2_alg».proof.Proof.LibDotRows
import Idealize.ShloMosaic.Lib.Pipeline.Value
import Idealize.ShloMosaic.Lib.ValueLayout

set_option maxRecDepth 16384

noncomputable section

namespace Cert.KernelIdeal.Self1

open Cert.KernelIdeal Cert.KernelIdeal.Gen Idealize.ShloMosaic Idealize.ShloMosaic.TcCoe Idealize.ShloMosaic.ValueIdx
open Idealize.SL.Sem Cert.Layer
open Idealize.ShloMosaic.Pipeline (Dat)
open scoped BigOperators

theorem hz : (![0, 0] : Fin 2 → Nat) = fun _ => 0 := funext fun a => by fin_cases a <;> rfl

theorem dotA : dot_S5000x128_S128x128_S5000x128_1_0_0_1_n_n = DotDims.plain 5000 128 128 := rfl

/-- The body's arithmetic at row p, lane q of a block. -/
theorem pay_apply (v0 : Vec Ideal S5000x128 .f32) (v2 : Vec Ideal S128x128 .bf16) (v5 : Vec Ideal S1x128 .f32)
    (v9 : Vec Ideal S5000x128 .f32) (v11 : Vec Ideal S5000x128 .f32) (p : Fin 5000) (q : Fin 128) :
    k1_pay1 (F := Ideal) v0 v2 v5 v9 v11 (ix2 p q)
      = (∑ k : Fin 128, v0 (ix2 p k) * v2 (ix2 k q) + v5 (ix2 0 q)) + v9 (ix2 p q) * v11 (ix2 p q) := by
  unfold k1_pay1
  simp only [shapeCast_self, dotA]
  rw [addf_apply, addf_apply, mulf_apply, Cert.Lib.DotRows.matmul_plain_apply, broadcastTo_1b_ab_apply]
  rfl

/-- What the body leaves in the output block is the array of the block's new rows. -/
theorem out_eq (x0 : Vec Ideal S5000x128 .f32) (x1 : Vec Ideal S128x128 .bf16) (x2 : Vec Ideal S1x128 .f32)
    (x3 : Vec Ideal S5000x128 .f32) (x4 : Vec Ideal S5000x128 .f32) :
    out1_5 (F := Ideal) x0 x1 x2 x3 x4
      = updArr (N := 5000) x0 (fun a k => x1 (ix2 a k)) (fun k => x2 (ix2 0 k)) x3 x4 := by
  unfold out1_5
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  exact pay_apply _ _ _ _ _ p q

variable (V : (c : Dev nD) → (b : Ref sig .tc) → Buf (Elt Ideal) ((c : Thread nD τ).loc b))

/-- The printed index maps over the grid: the four blocked windows sit at block t, the two whole windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt N_1

/-- Row r of the whole arrays, for a row of block t. -/
def row (t : Fin cfg1.N) (p : Fin 5000) : Fin 50000 := ⟨t.val * 5000 + p.val, by have := t_lt t; have := p.isLt; omega⟩

theorem blk0 (c : Dev nD) (t : Fin cfg1.N) (p : Fin 5000) (k : Fin 128) :
    iblk1 V c 0 t (ix2 p k) = V c main_arg0 (ix2 (row t p) k) := by
  show V c main_arg0 (((cfg1.win 0).blk t).view.emb (ix2 p k)) = _
  refine congrArg (V c main_arg0) (funext fun a => Fin.ext ?_)
  obtain ⟨e0, e1, -⟩ := idx_facts t
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem blk1 (c : Dev nD) (t : Fin cfg1.N) (a k : Fin 128) :
    iblk1 V c 1 t (ix2 a k) = V c main_v41 (ix2 a k) := by
  show V c main_v41 (((cfg1.win 1).blk t).view.emb (ix2 a k)) = _
  refine congrArg (V c main_v41) (funext fun b => Fin.ext ?_)
  obtain ⟨-, -, e0, e1, -⟩ := idx_facts t
  match b with
  | ⟨0, _⟩ => show win1_1.index t (0 : Fin 2) * 128 + 1 * a.val = a.val; rw [e0]; omega
  | ⟨1, _⟩ => show win1_1.index t (1 : Fin 2) * 128 + 1 * k.val = k.val; rw [e1]; omega

theorem blk2 (c : Dev nD) (t : Fin cfg1.N) (k : Fin 128) :
    iblk1 V c 2 t (ix2 0 k) = V c main_v44 (ix2 0 k) := by
  show V c main_v44 (((cfg1.win 2).blk t).view.emb (ix2 0 k)) = _
  refine congrArg (V c main_v44) (funext fun b => Fin.ext ?_)
  obtain ⟨-, -, -, -, e0, e1, -⟩ := idx_facts t
  match b with
  | ⟨0, _⟩ => show win1_2.index t (0 : Fin 2) * 1 + 1 * 0 = 0; rw [e0]
  | ⟨1, _⟩ => show win1_2.index t (1 : Fin 2) * 128 + 1 * k.val = k.val; rw [e1]; omega

theorem blk3 (c : Dev nD) (t : Fin cfg1.N) (p : Fin 5000) (k : Fin 128) :
    iblk1 V c 3 t (ix2 p k) = V c main_v38 (ix2 (row t p) k) := by
  show V c main_v38 (((cfg1.win 3).blk t).view.emb (ix2 p k)) = _
  refine congrArg (V c main_v38) (funext fun a => Fin.ext ?_)
  obtain ⟨-, -, -, -, -, -, e0, e1, -⟩ := idx_facts t
  match a with
  | ⟨0, _⟩ => show win1_3.index t (0 : Fin 2) * 5000 + 1 * p.val = t.val * 5000 + p.val; rw [e0]; omega
  | ⟨1, _⟩ => show win1_3.index t (1 : Fin 2) * 128 + 1 * k.val = k.val; rw [e1]; omega

theorem blk4 (c : Dev nD) (t : Fin cfg1.N) (p : Fin 5000) (k : Fin 128) :
    iblk1 V c 4 t (ix2 p k) = V c main_v12 (ix2 (row t p) k) := by
  show V c main_v12 (((cfg1.win 4).blk t).view.emb (ix2 p k)) = _
  refine congrArg (V c main_v12) (funext fun a => Fin.ext ?_)
  obtain ⟨-, -, -, -, -, -, -, -, e0, e1, -⟩ := idx_facts t
  match a with
  | ⟨0, _⟩ => show win1_4.index t (0 : Fin 2) * 5000 + 1 * p.val = t.val * 5000 + p.val; rw [e0]; omega
  | ⟨1, _⟩ => show win1_4.index t (1 : Fin 2) * 128 + 1 * k.val = k.val; rw [e1]; omega

/-- All the new rows, from the arrays the launch finds. -/
def G (c : Dev nD) : S50000x128.Idx → EReal :=
  updArr (N := 50000) (V c main_arg0) (fun a k => V c main_v41 (ix2 a k)) (fun k => V c main_v44 (ix2 0 k))
    (V c main_v38) (V c main_v12)

/-- What block t writes back is block t of all the new rows. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5, out_eq]
  funext j
  obtain ⟨p, q, rfl⟩ : ∃ (p : Fin 5000) (q : Fin 128), j = ix2 p q := ⟨j 0, j 1, eq_ix2 j⟩
  have hemb : ((cfg1.win 5).blk t).view.emb (ix2 p q) = ix2 (row t p) q := by
    funext a; apply Fin.ext
    obtain ⟨-, -, -, -, -, -, -, -, -, -, e0, e1⟩ := idx_facts t
    match a with
    | ⟨0, _⟩ => show win1_5.index t (0 : Fin 2) * 5000 + 1 * p.val = t.val * 5000 + p.val; rw [e0]; omega
    | ⟨1, _⟩ => show win1_5.index t (1 : Fin 2) * 128 + 1 * q.val = q.val; rw [e1]; omega
  show updArr (N := 5000) _ _ _ _ _ (ix2 p q) = G V c (((cfg1.win 5).blk t).view.emb (ix2 p q))
  rw [hemb]
  unfold G updArr
  show upd (fun k => iblk1 V c 0 t (ix2 p k)) (fun a k => iblk1 V c 1 t (ix2 a k)) (fun k => iblk1 V c 2 t (ix2 0 k))
      (iblk1 V c 3 t (ix2 p q)) (iblk1 V c 4 t (ix2 p q)) q = _
  simp only [blk0, blk1, blk2, blk3, blk4]

theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The 10 blocks tile the array: row r lies in block r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [show cfg1.N = 10 from N_1]; omega⟩
  refine ⟨t, flush1_5 t, ?_⟩
  rw [mem_blk]
  obtain ⟨-, -, -, -, -, -, -, -, -, -, e0, e1⟩ := idx_facts t
  have ht : t.val = (i 0).val / 5000 := rfl
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- After the launch the result array holds all the new rows. -/
theorem final (c : Dev nD) : (dat1 V c).arrAt 5 cfg1.N = G V c :=
  (dat1 V c).arrAt_eq_of_cover 5 (G V c) (fun t _ => flushed_eq V c t) (cover)

end Cert.KernelIdeal.Self1

end
-- ==== Proof.KFoldA.lean ====
/-
  The kernel program's fold through its first layer.

  The contents of the buffers at each boundary between host stretches and kernel launches, for the buffers that are read
  later: the arguments stay as launched (nothing writes them), what the first stretch computes from the edge list stays
  (nothing writes it again), each launch leaves its result array at the function of its inputs, and each later stretch
  computes from those.
-/
import proofs.«161121_j12876311953727_2_alg».proof.Proof.Gen.KernelIdeal.Frame
import proofs.«161121_j12876311953727_2_alg».proof.Proof.KParams
import proofs.«161121_j12876311953727_2_alg».proof.Proof.KLayer
import proofs.«161121_j12876311953727_2_alg».proof.Proof.KEdge0
import proofs.«161121_j12876311953727_2_alg».proof.Proof.KSelf1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.Layer

variable (m : (ℓ : Loc nD τ sig) → Buf (Elt Ideal) ℓ) (ρ : Dev nD → PrngReg) (c : Dev nD)

set_option quotPrecheck false in
local notation "A0" => (m ((c : Thread nD τ).loc main_arg0))
set_option quotPrecheck false in
local notation "A1" => (m ((c : Thread nD τ).loc main_arg1))
set_option quotPrecheck false in
local notation "A2" => (m ((c : Thread nD τ).loc main_arg2))
set_option quotPrecheck false in
local notation "A3" => (m ((c : Thread nD τ).loc main_arg3))
set_option quotPrecheck false in
local notation "A4" => (m ((c : Thread nD τ).loc main_arg4))
set_option quotPrecheck false in
local notation "A5" => (m ((c : Thread nD τ).loc main_arg5))
set_option quotPrecheck false in
local notation "A6" => (m ((c : Thread nD τ).loc main_arg6))
set_option quotPrecheck false in
local notation "A7" => (m ((c : Thread nD τ).loc main_arg7))
set_option quotPrecheck false in
local notation "A8" => (m ((c : Thread nD τ).loc main_arg8))

/-- The node features after the first, second and third layer, from the launch contents of the arguments. -/
def X1 : FVec Ideal S50000x128 .f32 := KL.layer0 A1 A2 A3 A4 A5 A6 A7 A8 A0
def X2 : FVec Ideal S50000x128 .f32 := KL.layer1 A1 A2 A3 A4 A5 A6 A7 A8 (X1 m c)
def X3 : FVec Ideal S50000x128 .f32 := KL.layer2 A1 A2 A3 A4 A5 A6 A7 A8 (X2 m c)

/-! ## What the host stretches write -/

/-- The buffers host stretch 0 writes. -/
abbrev hostOps0_W : List (Ref sig .tc) := [main_v0, main_v1, main_v2, main_v3, main_cst, main_v4, main_cst_0, main_v5, main_v6, main_v7, main_cst_1, main_v8, main_v9, main_cst_2, main_v10, main_v11, main_v12, main_v13, main_v14, main_c, main_v15, main_v16, main_c_3, main_v17, main_v18, main_v19, main_v20, main_v21, main_v22, main_v23, main_v24, main_v25, main_v26, main_v27, main_v28, main_v29, main_v30, main_v31, main_v32, main_v33]
theorem hostOps0_writes : (hostOps0 : List (HloOp τ sig (Elt Ideal))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers host stretch 1 writes. -/
abbrev hostOps1_W : List (Ref sig .tc) := [main_v35, main_cst_4, main_v36, main_v37, main_v38, main_v39, main_v40, main_v41, main_v42, main_v43, main_v44]
theorem hostOps1_writes : (hostOps1 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers host stretch 2 writes. -/
abbrev hostOps2_W : List (Ref sig .tc) := [main_v46, main_c_5, main_v47, main_v48, main_c_6, main_v49, main_v50, main_v51, main_v52, main_v53, main_v54, main_v55, main_v56, main_v57, main_v58, main_v59, main_v60, main_v61, main_v62, main_v63, main_v64, main_v65]
theorem hostOps2_writes : (hostOps2 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers host stretch 3 writes. -/
abbrev hostOps3_W : List (Ref sig .tc) := [main_v67, main_cst_7, main_v68, main_v69, main_v70, main_v71, main_v72, main_v73, main_v74, main_v75, main_v76]
theorem hostOps3_writes : (hostOps3 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers host stretch 4 writes. -/
abbrev hostOps4_W : List (Ref sig .tc) := [main_v78, main_c_8, main_v79, main_v80, main_c_9, main_v81, main_v82, main_v83, main_v84, main_v85, main_v86, main_v87, main_v88, main_v89, main_v90, main_v91, main_v92, main_v93, main_v94, main_v95, main_v96, main_v97]
theorem hostOps4_writes : (hostOps4 : List (HloOp τ sig (Elt Ideal))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers host stretch 5 writes. -/
abbrev hostOps5_W : List (Ref sig .tc) := [main_v99, main_cst_10, main_v100, main_v101, main_v102, main_v103, main_v104, main_v105, main_v106, main_v107, main_v108]
theorem hostOps5_writes : (hostOps5 : List (HloOp τ sig (Elt Ideal))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The fold, boundary by boundary: each buffer that is read later, at its value -/

/-! ### Boundary 0 -/

theorem at0_arg7 : W0 m ρ c (Proc.devRef .tc main_arg7) = A7 := rfl
theorem at0_arg8 : W0 m ρ c (Proc.devRef .tc main_arg8) = A8 := rfl
theorem at0_arg0 : W0 m ρ c (Proc.devRef .tc main_arg0) = A0 := rfl
theorem at0_arg3 : W0 m ρ c (Proc.devRef .tc main_arg3) = A3 := rfl
theorem at0_arg4 : W0 m ρ c (Proc.devRef .tc main_arg4) = A4 := rfl
theorem at0_arg5 : W0 m ρ c (Proc.devRef .tc main_arg5) = A5 := rfl
theorem at0_arg6 : W0 m ρ c (Proc.devRef .tc main_arg6) = A6 := rfl

/-! ### Boundary 1 -/

set_option maxHeartbeats 4000000 in
theorem at1_v21 : W1 m ρ c (Proc.devRef .tc main_v21) = Par.gath A1 (A0) := by
  show StableHlo.after hostOps0 (W0 m ρ c) (Proc.devRef .tc main_v21) = _
  after_results_simp
  rfl
set_option maxHeartbeats 4000000 in
theorem at1_v13 : W1 m ρ c (Proc.devRef .tc main_v13) = Par.eab A2 := by
  show StableHlo.after hostOps0 (W0 m ρ c) (Proc.devRef .tc main_v13) = _
  after_results_simp
  rfl
set_option maxHeartbeats 4000000 in
theorem at1_v24 : W1 m ρ c (Proc.devRef .tc main_v24) = Par.w1b0 A3 := by
  show StableHlo.after hostOps0 (W0 m ρ c) (Proc.devRef .tc main_v24) = _
  after_results_simp
  rfl
set_option maxHeartbeats 4000000 in
theorem at1_v32 : W1 m ρ c (Proc.devRef .tc main_v32) = Par.b1r0 A4 := by
  show StableHlo.after hostOps0 (W0 m ρ c) (Proc.devRef .tc main_v32) = _
  after_results_simp
  rfl
set_option maxHeartbeats 4000000 in
theorem at1_v29 : W1 m ρ c (Proc.devRef .tc main_v29) = Par.w2b0 A5 := by
  show StableHlo.after hostOps0 (W0 m ρ c) (Proc.devRef .tc main_v29) = _
  after_results_simp
  rfl
set_option maxHeartbeats 4000000 in
theorem at1_v33 : W1 m ρ c (Proc.devRef .tc main_v33) = Par.b2r0 A6 := by
  show StableHlo.after hostOps0 (W0 m ρ c) (Proc.devRef .tc main_v33) = _
  after_results_simp
  rfl
set_option maxHeartbeats 4000000 in
theorem at1_v3 : W1 m ρ c (Proc.devRef .tc main_v3) = Par.dst A1 := by
  show StableHlo.after hostOps0 (W0 m ρ c) (Proc.devRef .tc main_v3) = _
  after_results_simp
  rfl
theorem at1_arg7 : W1 m ρ c (Proc.devRef .tc main_arg7) = A7 :=
  (StableHlo.after_of_writes_sub hostOps0 _ hostOps0_writes (by decide)).trans (at0_arg7 m ρ c)
theorem at1_arg8 : W1 m ρ c (Proc.devRef .tc main_arg8) = A8 :=
  (StableHlo.after_of_writes_sub hostOps0 _ hostOps0_writes (by decide)).trans (at0_arg8 m ρ c)
theorem at1_arg0 : W1 m ρ c (Proc.devRef .tc main_arg0) = A0 :=
  (StableHlo.after_of_writes_sub hostOps0 _ hostOps0_writes (by decide)).trans (at0_arg0 m ρ c)
set_option maxHeartbeats 4000000 in
theorem at1_v12 : W1 m ρ c (Proc.devRef .tc main_v12) = Par.dinv A1 := by
  show StableHlo.after hostOps0 (W0 m ρ c) (Proc.devRef .tc main_v12) = _
  after_results_simp
  rfl
set_option maxHeartbeats 4000000 in
theorem at1_v1 : W1 m ρ c (Proc.devRef .tc main_v1) = Par.src A1 := by
  show StableHlo.after hostOps0 (W0 m ρ c) (Proc.devRef .tc main_v1) = _
  after_results_simp
  rfl
theorem at1_arg3 : W1 m ρ c (Proc.devRef .tc main_arg3) = A3 :=
  (StableHlo.after_of_writes_sub hostOps0 _ hostOps0_writes (by decide)).trans (at0_arg3 m ρ c)
theorem at1_arg4 : W1 m ρ c (Proc.devRef .tc main_arg4) = A4 :=
  (StableHlo.after_of_writes_sub hostOps0 _ hostOps0_writes (by decide)).trans (at0_arg4 m ρ c)
theorem at1_arg5 : W1 m ρ c (Proc.devRef .tc main_arg5) = A5 :=
  (StableHlo.after_of_writes_sub hostOps0 _ hostOps0_writes (by decide)).trans (at0_arg5 m ρ c)
theorem at1_arg6 : W1 m ρ c (Proc.devRef .tc main_arg6) = A6 :=
  (StableHlo.after_of_writes_sub hostOps0 _ hostOps0_writes (by decide)).trans (at0_arg6 m ρ c)

/-! ### Boundary 2 -/

theorem at2_v13 : W2 m ρ c (Proc.devRef .tc main_v13) = Par.eab A2 :=
  (W2_arr m ρ c 1).trans (((dat0 (V1 m ρ) c).arrAt_in 1 rfl _).trans ((A_eq0 (V1 m ρ) c 1).trans (at1_v13 m ρ c)))
theorem at2_v3 : W2 m ρ c (Proc.devRef .tc main_v3) = Par.dst A1 :=
  (W2_of_ne m ρ c main_v3 (by decide)).trans (at1_v3 m ρ c)
theorem at2_v34 : W2 m ρ c (Proc.devRef .tc main_v34) = KL.msg0 A1 A2 A3 A4 A5 A6 (A0) := by
  refine (W2_arr m ρ c 6).trans ?_
  rw [Edge0.final]
  unfold Edge0.G
  dsimp only [V1]
  rw [at1_v21 m ρ c, at1_v13 m ρ c, at1_v24 m ρ c, at1_v32 m ρ c, at1_v29 m ρ c, at1_v33 m ρ c]
  rfl
theorem at2_arg7 : W2 m ρ c (Proc.devRef .tc main_arg7) = A7 :=
  (W2_of_ne m ρ c main_arg7 (by decide)).trans (at1_arg7 m ρ c)
theorem at2_arg8 : W2 m ρ c (Proc.devRef .tc main_arg8) = A8 :=
  (W2_of_ne m ρ c main_arg8 (by decide)).trans (at1_arg8 m ρ c)
theorem at2_arg0 : W2 m ρ c (Proc.devRef .tc main_arg0) = A0 :=
  (W2_of_ne m ρ c main_arg0 (by decide)).trans (at1_arg0 m ρ c)
theorem at2_v12 : W2 m ρ c (Proc.devRef .tc main_v12) = Par.dinv A1 :=
  (W2_of_ne m ρ c main_v12 (by decide)).trans (at1_v12 m ρ c)
theorem at2_v1 : W2 m ρ c (Proc.devRef .tc main_v1) = Par.src A1 :=
  (W2_of_ne m ρ c main_v1 (by decide)).trans (at1_v1 m ρ c)
theorem at2_arg3 : W2 m ρ c (Proc.devRef .tc main_arg3) = A3 :=
  (W2_of_ne m ρ c main_arg3 (by decide)).trans (at1_arg3 m ρ c)
theorem at2_arg4 : W2 m ρ c (Proc.devRef .tc main_arg4) = A4 :=
  (W2_of_ne m ρ c main_arg4 (by decide)).trans (at1_arg4 m ρ c)
theorem at2_arg5 : W2 m ρ c (Proc.devRef .tc main_arg5) = A5 :=
  (W2_of_ne m ρ c main_arg5 (by decide)).trans (at1_arg5 m ρ c)
theorem at2_arg6 : W2 m ρ c (Proc.devRef .tc main_arg6) = A6 :=
  (W2_of_ne m ρ c main_arg6 (by decide)).trans (at1_arg6 m ρ c)

/-! ### Boundary 3 -/

theorem at3_v13 : W3 m ρ c (Proc.devRef .tc main_v13) = Par.eab A2 :=
  (StableHlo.after_of_writes_sub hostOps1 _ hostOps1_writes (by decide)).trans (at2_v13 m ρ c)
theorem at3_v3 : W3 m ρ c (Proc.devRef .tc main_v3) = Par.dst A1 :=
  (StableHlo.after_of_writes_sub hostOps1 _ hostOps1_writes (by decide)).trans (at2_v3 m ρ c)
theorem at3_arg7 : W3 m ρ c (Proc.devRef .tc main_arg7) = A7 :=
  (StableHlo.after_of_writes_sub hostOps1 _ hostOps1_writes (by decide)).trans (at2_arg7 m ρ c)
theorem at3_arg8 : W3 m ρ c (Proc.devRef .tc main_arg8) = A8 :=
  (StableHlo.after_of_writes_sub hostOps1 _ hostOps1_writes (by decide)).trans (at2_arg8 m ρ c)
theorem at3_arg0 : W3 m ρ c (Proc.devRef .tc main_arg0) = A0 :=
  (StableHlo.after_of_writes_sub hostOps1 _ hostOps1_writes (by decide)).trans (at2_arg0 m ρ c)
set_option maxHeartbeats 4000000 in
theorem at3_v41 : W3 m ρ c (Proc.devRef .tc main_v41) = Par.wsb0 A7 := by
  show StableHlo.after hostOps1 (W2 m ρ c) (Proc.devRef .tc main_v41) = _
  after_results_simp
  rw [at2_arg7 m ρ c]
  rfl
set_option maxHeartbeats 4000000 in
theorem at3_v44 : W3 m ρ c (Proc.devRef .tc main_v44) = Par.bsr0 A8 := by
  show StableHlo.after hostOps1 (W2 m ρ c) (Proc.devRef .tc main_v44) = _
  after_results_simp
  rw [at2_arg8 m ρ c]
  rfl
set_option maxHeartbeats 4000000 in
theorem at3_v38 : W3 m ρ c (Proc.devRef .tc main_v38) = Par.scat A1 (KL.msg0 A1 A2 A3 A4 A5 A6 (A0)) := by
  show StableHlo.after hostOps1 (W2 m ρ c) (Proc.devRef .tc main_v38) = _
  after_results_simp
  rw [at2_v3 m ρ c, at2_v34 m ρ c]
  rfl
theorem at3_v12 : W3 m ρ c (Proc.devRef .tc main_v12) = Par.dinv A1 :=
  (StableHlo.after_of_writes_sub hostOps1 _ hostOps1_writes (by decide)).trans (at2_v12 m ρ c)
theorem at3_v1 : W3 m ρ c (Proc.devRef .tc main_v1) = Par.src A1 :=
  (StableHlo.after_of_writes_sub hostOps1 _ hostOps1_writes (by decide)).trans (at2_v1 m ρ c)
theorem at3_arg3 : W3 m ρ c (Proc.devRef .tc main_arg3) = A3 :=
  (StableHlo.after_of_writes_sub hostOps1 _ hostOps1_writes (by decide)).trans (at2_arg3 m ρ c)
theorem at3_arg4 : W3 m ρ c (Proc.devRef .tc main_arg4) = A4 :=
  (StableHlo.after_of_writes_sub hostOps1 _ hostOps1_writes (by decide)).trans (at2_arg4 m ρ c)
theorem at3_arg5 : W3 m ρ c (Proc.devRef .tc main_arg5) = A5 :=
  (StableHlo.after_of_writes_sub hostOps1 _ hostOps1_writes (by decide)).trans (at2_arg5 m ρ c)
theorem at3_arg6 : W3 m ρ c (Proc.devRef .tc main_arg6) = A6 :=
  (StableHlo.after_of_writes_sub hostOps1 _ hostOps1_writes (by decide)).trans (at2_arg6 m ρ c)

/-! ### Boundary 4 -/

theorem at4_v13 : W4 m ρ c (Proc.devRef .tc main_v13) = Par.eab A2 :=
  (W4_of_ne m ρ c main_v13 (by decide)).trans (at3_v13 m ρ c)
theorem at4_v3 : W4 m ρ c (Proc.devRef .tc main_v3) = Par.dst A1 :=
  (W4_of_ne m ρ c main_v3 (by decide)).trans (at3_v3 m ρ c)
theorem at4_arg7 : W4 m ρ c (Proc.devRef .tc main_arg7) = A7 :=
  (W4_of_ne m ρ c main_arg7 (by decide)).trans (at3_arg7 m ρ c)
theorem at4_arg8 : W4 m ρ c (Proc.devRef .tc main_arg8) = A8 :=
  (W4_of_ne m ρ c main_arg8 (by decide)).trans (at3_arg8 m ρ c)
theorem at4_v12 : W4 m ρ c (Proc.devRef .tc main_v12) = Par.dinv A1 :=
  (W4_arr m ρ c 4).trans (((dat1 (V3 m ρ) c).arrAt_in 4 rfl _).trans ((A_eq1 (V3 m ρ) c 4).trans (at3_v12 m ρ c)))
theorem at4_v45 : W4 m ρ c (Proc.devRef .tc main_v45) = X1 m c := by
  refine (W4_arr m ρ c 5).trans ?_
  rw [Self1.final]
  unfold Self1.G
  dsimp only [V3]
  rw [at3_arg0 m ρ c, at3_v41 m ρ c, at3_v44 m ρ c, at3_v38 m ρ c, at3_v12 m ρ c]
  rfl
theorem at4_v1 : W4 m ρ c (Proc.devRef .tc main_v1) = Par.src A1 :=
  (W4_of_ne m ρ c main_v1 (by decide)).trans (at3_v1 m ρ c)
theorem at4_arg3 : W4 m ρ c (Proc.devRef .tc main_arg3) = A3 :=
  (W4_of_ne m ρ c main_arg3 (by decide)).trans (at3_arg3 m ρ c)
theorem at4_arg4 : W4 m ρ c (Proc.devRef .tc main_arg4) = A4 :=
  (W4_of_ne m ρ c main_arg4 (by decide)).trans (at3_arg4 m ρ c)
theorem at4_arg5 : W4 m ρ c (Proc.devRef .tc main_arg5) = A5 :=
  (W4_of_ne m ρ c main_arg5 (by decide)).trans (at3_arg5 m ρ c)
theorem at4_arg6 : W4 m ρ c (Proc.devRef .tc main_arg6) = A6 :=
  (W4_of_ne m ρ c main_arg6 (by decide)).trans (at3_arg6 m ρ c)

end Cert.KernelIdeal.Fold

end
-- ==== Proof.KEdge2.lean ====
/-
  Kernel launch 2 (the edge perceptron), as one function of the arrays it finds.

  The launch walks 100 blocks of 8000 edges. At a block it loads the block's rows of gathered node features and of edge
  features and the whole weight and bias arrays, and stores, for each edge of the block, the message of that edge: the
  two products of the first layer (node part and edge part of the joined features) added, the bias added, clipped below at
  zero, multiplied by the second weights, the second bias added. A message depends only on its own edge's rows, so
  block t of the result is rows 8000·t … 8000·t + 7999 of the array of all messages, and the 100 blocks tile the array.
-/
import proofs.«161121_j12876311953727_2_alg».proof.Proof.Gen.KernelIdeal.Frame
import proofs.«161121_j12876311953727_2_alg».proof.Proof.LayerSpec
import proofs.«161121_j12876311953727_2_alg».proof.Proof.LibDotRows
import Idealize.ShloMosaic.Lib.Pipeline.Value
import Idealize.ShloMosaic.Lib.ValueLayout

set_option maxRecDepth 16384

noncomputable section

namespace Cert.KernelIdeal.Edge2

open Cert.KernelIdeal Cert.KernelIdeal.Gen Idealize.ShloMosaic Idealize.ShloMosaic.TcCoe Idealize.ShloMosaic.ValueIdx
open Idealize.SL.Sem Cert.Layer
open Idealize.ShloMosaic.Pipeline (Dat)
open scoped BigOperators

theorem hz : (![0, 0] : Fin 2 → Nat) = fun _ => 0 := funext fun a => by fin_cases a <;> rfl

theorem dotA : dot_S8000x128_S128x128_S8000x128_1_0_0_1_n_n = DotDims.plain 8000 128 128 := rfl
theorem dotB : dot_S8000x16_S16x128_S8000x128_1_0_0_1_n_n = DotDims.plain 8000 16 128 := rfl

/-- The body's arithmetic at row p, lane q of a block. -/
theorem pay_apply (v0 : Vec Ideal S8000x128 .bf16) (v2 : Vec Ideal S8000x16 .bf16) (v4 : Vec Ideal S128x128 .bf16)
    (v6 : Vec Ideal S16x128 .bf16) (v11 : Vec Ideal S1x128 .f32) (v18 : Vec Ideal S128x128 .bf16) (v21 : Vec Ideal S1x128 .f32)
    (p : Fin 8000) (q : Fin 128) :
    k2_pay1 (F := Ideal) v0 v2 v4 v6 v11 v18 v21 (ix2 p q)
      = ∑ k : Fin 128, max ((∑ i : Fin 128, v0 (ix2 p i) * v4 (ix2 i k) + ∑ i : Fin 16, v2 (ix2 p i) * v6 (ix2 i k))
            + v11 (ix2 0 k)) 0 * v18 (ix2 k q) + v21 (ix2 0 q) := by
  unfold k2_pay1
  simp only [shapeCast_self, dotA, dotB]
  rw [truncf_apply, addf_apply, Cert.Lib.DotRows.matmul_plain_apply, broadcastTo_1b_ab_apply]
  congr 1
  refine Finset.sum_congr rfl fun k _ => ?_
  congr 1
  rw [truncf_apply, maximumf_apply, addf_apply, addf_apply, Cert.Lib.DotRows.matmul_plain_apply,
    Cert.Lib.DotRows.matmul_plain_apply, broadcastTo_1b_ab_apply, broadcast_apply, Ideal.ofBits_def, Ideal.ofBits_zero_f32]

/-- The first 128 rows of the weight block are the node part of the joined features … -/
theorem ld_top (x2 : Vec Ideal S144x128 .bf16) (i k : Fin 128) : View.ld x2 r2_2 (ix2 i k) = x2 (ix2 (inL i) k) := by
  show x2 (r2_2.idx (ix2 i k)) = _
  refine congrArg x2 (funext fun a => Fin.ext ?_)
  match a with
  | ⟨0, _⟩ => show 0 + 1 * i.val = i.val; omega
  | ⟨1, _⟩ => show 0 + 1 * k.val = k.val; omega

/-- … and the last 16 rows the edge part. -/
theorem ld_bot (x2 : Vec Ideal S144x128 .bf16) (i : Fin 16) (k : Fin 128) : View.ld x2 r2_3 (ix2 i k) = x2 (ix2 (inR i) k) := by
  show x2 (r2_3.idx (ix2 i k)) = _
  refine congrArg x2 (funext fun a => Fin.ext ?_)
  match a with
  | ⟨0, _⟩ => show 128 + 1 * i.val = 128 + i.val; omega
  | ⟨1, _⟩ => show 0 + 1 * k.val = k.val; omega

/-- What the body leaves in the output block is the array of the block's messages. -/
theorem out_eq (x0 : Vec Ideal S8000x128 .bf16) (x1 : Vec Ideal S8000x16 .bf16) (x2 : Vec Ideal S144x128 .bf16)
    (x3 : Vec Ideal S1x128 .f32) (x4 : Vec Ideal S128x128 .bf16) (x5 : Vec Ideal S1x128 .f32) :
    out2_6 (F := Ideal) x0 x1 x2 x3 x4 x5
      = msgArr (E := 8000) x0 x1 (fun a k => x2 (ix2 a k)) (fun k => x3 (ix2 0 k)) (fun a k => x4 (ix2 a k)) (fun k => x5 (ix2 0 k)) := by
  unfold out2_6
  rw [View.canon_unit_zero hz]
  simp only [View.ld_unit_zero (S := S8000x128) hz, View.ld_unit_zero (S := S8000x16) hz,
    View.ld_unit_zero (S := S1x128) hz, View.ld_unit_zero (S := S128x128) hz]
  have hT : View.ld x2 r2_2 = fun y : S128x128.Idx => x2 (ix2 (inL (y 0)) (y 1)) := funext fun y => by
    obtain ⟨i, k, rfl⟩ : ∃ (i k : Fin 128), y = ix2 i k := ⟨y 0, y 1, eq_ix2 y⟩
    exact ld_top x2 i k
  have hB : View.ld x2 r2_3 = fun y : S16x128.Idx => x2 (ix2 (inR (y 0)) (y 1)) := funext fun y => by
    obtain ⟨i, k, rfl⟩ : ∃ (i : Fin 16) (k : Fin 128), y = ix2 i k := ⟨y 0, y 1, eq_ix2 y⟩
    exact ld_bot x2 i k
  rw [hT, hB]
  funext j
  obtain ⟨p, q, rfl⟩ : ∃ (p : Fin 8000) (q : Fin 128), j = ix2 p q := ⟨j 0, j 1, eq_ix2 j⟩
  refine (pay_apply _ _ _ _ _ _ _ p q).trans ?_
  rfl

variable (V : (c : Dev nD) → (b : Ref sig .tc) → Buf (Elt Ideal) ((c : Thread nD τ).loc b))

/-- The printed index maps over the grid: the three blocked windows sit at block t, the four whole windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 100 := lt_of_lt_of_eq t.isLt N_2

/-- Row r of the whole arrays, for a row of block t. -/
def row (t : Fin cfg2.N) (p : Fin 8000) : Fin 800000 := ⟨t.val * 8000 + p.val, by have := t_lt t; have := p.isLt; omega⟩

theorem blk0 (c : Dev nD) (t : Fin cfg2.N) (p : Fin 8000) (k : Fin 128) :
    iblk2 V c 0 t (ix2 p k) = V c main_v53 (ix2 (row t p) k) := by
  show V c main_v53 (((cfg2.win 0).blk t).view.emb (ix2 p k)) = _
  refine congrArg (V c main_v53) (funext fun a => Fin.ext ?_)
  obtain ⟨e0, e1, -⟩ := idx_facts t
  match a with
  | ⟨0, _⟩ => show win2_0.index t (0 : Fin 2) * 8000 + 1 * p.val = t.val * 8000 + p.val; rw [e0]; omega
  | ⟨1, _⟩ => show win2_0.index t (1 : Fin 2) * 128 + 1 * k.val = k.val; rw [e1]; omega

theorem blk1 (c : Dev nD) (t : Fin cfg2.N) (p : Fin 8000) (k : Fin 16) :
    iblk2 V c 1 t (ix2 p k) = V c main_v13 (ix2 (row t p) k) := by
  show V c main_v13 (((cfg2.win 1).blk t).view.emb (ix2 p k)) = _
  refine congrArg (V c main_v13) (funext fun a => Fin.ext ?_)
  obtain ⟨-, -, e0, e1, -⟩ := idx_facts t
  match a with
  | ⟨0, _⟩ => show win2_1.index t (0 : Fin 2) * 8000 + 1 * p.val = t.val * 8000 + p.val; rw [e0]; omega
  | ⟨1, _⟩ => show win2_1.index t (1 : Fin 2) * 16 + 1 * k.val = k.val; rw [e1]; omega

theorem blk2 (c : Dev nD) (t : Fin cfg2.N) (a : Fin 144) (k : Fin 128) :
    iblk2 V c 2 t (ix2 a k) = V c main_v56 (ix2 a k) := by
  show V c main_v56 (((cfg2.win 2).blk t).view.emb (ix2 a k)) = _
  refine congrArg (V c main_v56) (funext fun b => Fin.ext ?_)
  obtain ⟨-, -, -, -, e0, e1, -⟩ := idx_facts t
  match b with
  | ⟨0, _⟩ => show win2_2.index t (0 : Fin 2) * 144 + 1 * a.val = a.val; rw [e0]; omega
  | ⟨1, _⟩ => show win2_2.index t (1 : Fin 2) * 128 + 1 * k.val = k.val; rw [e1]; omega

theorem blk3 (c : Dev nD) (t : Fin cfg2.N) (k : Fin 128) :
    iblk2 V c 3 t (ix2 0 k) = V c main_v64 (ix2 0 k) := by
  show V c main_v64 (((cfg2.win 3).blk t).view.emb (ix2 0 k)) = _
  refine congrArg (V c main_v64) (funext fun b => Fin.ext ?_)
  obtain ⟨-, -, -, -, -, -, e0, e1, -⟩ := idx_facts t
  match b with
  | ⟨0, _⟩ => show win2_3.index t (0 : Fin 2) * 1 + 1 * 0 = 0; rw [e0]
  | ⟨1, _⟩ => show win2_3.index t (1 : Fin 2) * 128 + 1 * k.val = k.val; rw [e1]; omega

theorem blk4 (c : Dev nD) (t : Fin cfg2.N) (a k : Fin 128) :
    iblk2 V c 4 t (ix2 a k) = V c main_v61 (ix2 a k) := by
  show V c main_v61 (((cfg2.win 4).blk t).view.emb (ix2 a k)) = _
  refine congrArg (V c main_v61) (funext fun b => Fin.ext ?_)
  obtain ⟨-, -, -, -, -, -, -, -, e0, e1, -⟩ := idx_facts t
  match b with
  | ⟨0, _⟩ => show win2_4.index t (0 : Fin 2) * 128 + 1 * a.val = a.val; rw [e0]; omega
  | ⟨1, _⟩ => show win2_4.index t (1 : Fin 2) * 128 + 1 * k.val = k.val; rw [e1]; omega

theorem blk5 (c : Dev nD) (t : Fin cfg2.N) (k : Fin 128) :
    iblk2 V c 5 t (ix2 0 k) = V c main_v65 (ix2 0 k) := by
  show V c main_v65 (((cfg2.win 5).blk t).view.emb (ix2 0 k)) = _
  refine congrArg (V c main_v65) (funext fun b => Fin.ext ?_)
  obtain ⟨-, -, -, -, -, -, -, -, -, -, e0, e1, -⟩ := idx_facts t
  match b with
  | ⟨0, _⟩ => show win2_5.index t (0 : Fin 2) * 1 + 1 * 0 = 0; rw [e0]
  | ⟨1, _⟩ => show win2_5.index t (1 : Fin 2) * 128 + 1 * k.val = k.val; rw [e1]; omega

/-- All the messages, from the arrays the launch finds. -/
def G (c : Dev nD) : S800000x128.Idx → EReal :=
  msgArr (E := 800000) (V c main_v53) (V c main_v13) (fun a k => V c main_v56 (ix2 a k)) (fun k => V c main_v64 (ix2 0 k))
    (fun a k => V c main_v61 (ix2 a k)) (fun k => V c main_v65 (ix2 0 k))

/-- What block t writes back is block t of all the messages. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6, out_eq]
  funext j
  obtain ⟨p, q, rfl⟩ : ∃ (p : Fin 8000) (q : Fin 128), j = ix2 p q := ⟨j 0, j 1, eq_ix2 j⟩
  have hemb : ((cfg2.win 6).blk t).view.emb (ix2 p q) = ix2 (row t p) q := by
    funext a; apply Fin.ext
    obtain ⟨-, -, -, -, -, -, -, -, -, -, -, -, e0, e1⟩ := idx_facts t
    match a with
    | ⟨0, _⟩ => show win2_6.index t (0 : Fin 2) * 8000 + 1 * p.val = t.val * 8000 + p.val; rw [e0]; omega
    | ⟨1, _⟩ => show win2_6.index t (1 : Fin 2) * 128 + 1 * q.val = q.val; rw [e1]; omega
  show msgArr (E := 8000) _ _ _ _ _ _ (ix2 p q) = G V c (((cfg2.win 6).blk t).view.emb (ix2 p q))
  rw [hemb]
  unfold G msgArr
  show msg (hid (fun k => iblk2 V c 0 t (ix2 p k)) (fun k => iblk2 V c 1 t (ix2 p k)) (fun a k => iblk2 V c 2 t (ix2 a k))
      (fun k => iblk2 V c 3 t (ix2 0 k))) (fun a k => iblk2 V c 4 t (ix2 a k)) (fun k => iblk2 V c 5 t (ix2 0 k)) q = _
  simp only [blk0, blk1, blk2, blk3, blk4, blk5]

theorem mem_blk (t : Fin cfg2.N) (i : S800000x128.Idx) :
    i ∈ ((cfg2.win 6).blk t).view.set ↔ ∀ a : Fin 2, win2_6.index t a * S8000x128.size a ≤ (i a).val ∧ (i a).val < win2_6.index t a * S8000x128.size a + S8000x128.size a := by
  show i ∈ ((View.whole main_v66).slice (win2_6.rect t)).set ↔ _
  rw [View.set_slice_whole, Rect.mem_set_unit]
  exact Iff.rfl

/-- The 100 blocks tile the array: row r lies in block r / 8000. -/
theorem cover (i : S800000x128.Idx) : ∃ t : Fin cfg2.N, (cfg2.win 6).flush t = true ∧ i ∈ ((cfg2.win 6).blk t).view.set := by
  have hi0 : (i 0).val < 800000 := (i 0).isLt
  have hi1 : (i 1).val < 128 := (i 1).isLt
  let t : Fin cfg2.N := ⟨(i 0).val / 8000, by rw [show cfg2.N = 100 from N_2]; omega⟩
  refine ⟨t, flush2_6 t, ?_⟩
  rw [mem_blk]
  obtain ⟨-, -, -, -, -, -, -, -, -, -, -, -, e0, e1⟩ := idx_facts t
  have ht : t.val = (i 0).val / 8000 := rfl
  intro a
  match a with
  | ⟨0, _⟩ => show win2_6.index t (0 : Fin 2) * 8000 ≤ (i 0).val ∧ (i 0).val < win2_6.index t (0 : Fin 2) * 8000 + 8000; rw [e0, ht]; omega
  | ⟨1, _⟩ => show win2_6.index t (1 : Fin 2) * 128 ≤ (i 1).val ∧ (i 1).val < win2_6.index t (1 : Fin 2) * 128 + 128; rw [e1]; omega

/-- After the launch the result array holds all the messages. -/
theorem final (c : Dev nD) : (dat2 V c).arrAt 6 cfg2.N = G V c :=
  (dat2 V c).arrAt_eq_of_cover 6 (G V c) (fun t _ => flushed_eq V c t) (cover)

end Cert.KernelIdeal.Edge2

end
-- ==== Proof.KSelf3.lean ====
/-
  Kernel launch 3 (the node update), as one function of the arrays it finds.

  The launch walks 10 blocks of 5000 nodes. At a block it loads the block's rows of the node features, of the summed
  messages and of the reciprocal degrees, and the whole weight and bias arrays, and stores for each node of the block its
  new row: the product with the weights, the bias added, the summed message times the reciprocal degree added. A new row
  depends only on its own node's rows, so block t of the result is rows 5000·t … 5000·t + 4999 of the array of all new
  rows, and the 10 blocks tile the array.
-/
import proofs.«161121_j12876311953727_2_alg».proof.Proof.Gen.KernelIdeal.Frame
import proofs.«161121_j12876311953727_2_alg».proof.Proof.LayerSpec
import proofs.«161121_j12876311953727_2_alg».proof.Proof.LibDotRows
import Idealize.ShloMosaic.Lib.Pipeline.Value
import Idealize.ShloMosaic.Lib.ValueLayout

set_option maxRecDepth 16384

noncomputable section

namespace Cert.KernelIdeal.Self3

open Cert.KernelIdeal Cert.KernelIdeal.Gen Idealize.ShloMosaic Idealize.ShloMosaic.TcCoe Idealize.ShloMosaic.ValueIdx
open Idealize.SL.Sem Cert.Layer
open Idealize.ShloMosaic.Pipeline (Dat)
open scoped BigOperators

theorem hz : (![0, 0] : Fin 2 → Nat) = fun _ => 0 := funext fun a => by fin_cases a <;> rfl

theorem dotA : dot_S5000x128_S128x128_S5000x128_1_0_0_1_n_n = DotDims.plain 5000 128 128 := rfl

/-- The body's arithmetic at row p, lane q of a block. -/
theorem pay_apply (v0 : Vec Ideal S5000x128 .f32) (v2 : Vec Ideal S128x128 .bf16) (v5 : Vec Ideal S1x128 .f32)
    (v9 : Vec Ideal S5000x128 .f32) (v11 : Vec Ideal S5000x128 .f32) (p : Fin 5000) (q : Fin 128) :
    k3_pay1 (F := Ideal) v0 v2 v5 v9 v11 (ix2 p q)
      = (∑ k : Fin 128, v0 (ix2 p k) * v2 (ix2 k q) + v5 (ix2 0 q)) + v9 (ix2 p q) * v11 (ix2 p q) := by
  unfold k3_pay1
  simp only [shapeCast_self, dotA]
  rw [addf_apply, addf_apply, mulf_apply, Cert.Lib.DotRows.matmul_plain_apply, broadcastTo_1b_ab_apply]
  rfl

/-- What the body leaves in the output block is the array of the block's new rows. -/
theorem out_eq (x0 : Vec Ideal S5000x128 .f32) (x1 : Vec Ideal S128x128 .bf16) (x2 : Vec Ideal S1x128 .f32)
    (x3 : Vec Ideal S5000x128 .f32) (x4 : Vec Ideal S5000x128 .f32) :
    out3_5 (F := Ideal) x0 x1 x2 x3 x4
      = updArr (N := 5000) x0 (fun a k => x1 (ix2 a k)) (fun k => x2 (ix2 0 k)) x3 x4 := by
  unfold out3_5
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  exact pay_apply _ _ _ _ _ p q

variable (V : (c : Dev nD) → (b : Ref sig .tc) → Buf (Elt Ideal) ((c : Thread nD τ).loc b))

/-- The printed index maps over the grid: the four blocked windows sit at block t, the two whole windows at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 10 := lt_of_lt_of_eq t.isLt N_3

/-- Row r of the whole arrays, for a row of block t. -/
def row (t : Fin cfg3.N) (p : Fin 5000) : Fin 50000 := ⟨t.val * 5000 + p.val, by have := t_lt t; have := p.isLt; omega⟩

theorem blk0 (c : Dev nD) (t : Fin cfg3.N) (p : Fin 5000) (k : Fin 128) :
    iblk3 V c 0 t (ix2 p k) = V c main_v45 (ix2 (row t p) k) := by
  show V c main_v45 (((cfg3.win 0).blk t).view.emb (ix2 p k)) = _
  refine congrArg (V c main_v45) (funext fun a => Fin.ext ?_)
  obtain ⟨e0, e1, -⟩ := idx_facts t
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

theorem blk1 (c : Dev nD) (t : Fin cfg3.N) (a k : Fin 128) :
    iblk3 V c 1 t (ix2 a k) = V c main_v73 (ix2 a k) := by
  show V c main_v73 (((cfg3.win 1).blk t).view.emb (ix2 a k)) = _
  refine congrArg (V c main_v73) (funext fun b => Fin.ext ?_)
  obtain ⟨-, -, e0, e1, -⟩ := idx_facts t
  match b with
  | ⟨0, _⟩ => show win3_1.index t (0 : Fin 2) * 128 + 1 * a.val = a.val; rw [e0]; omega
  | ⟨1, _⟩ => show win3_1.index t (1 : Fin 2) * 128 + 1 * k.val = k.val; rw [e1]; omega

theorem blk2 (c : Dev nD) (t : Fin cfg3.N) (k : Fin 128) :
    iblk3 V c 2 t (ix2 0 k) = V c main_v76 (ix2 0 k) := by
  show V c main_v76 (((cfg3.win 2).blk t).view.emb (ix2 0 k)) = _
  refine congrArg (V c main_v76) (funext fun b => Fin.ext ?_)
  obtain ⟨-, -, -, -, e0, e1, -⟩ := idx_facts t
  match b with
  | ⟨0, _⟩ => show win3_2.index t (0 : Fin 2) * 1 + 1 * 0 = 0; rw [e0]
  | ⟨1, _⟩ => show win3_2.index t (1 : Fin 2) * 128 + 1 * k.val = k.val; rw [e1]; omega

theorem blk3 (c : Dev nD) (t : Fin cfg3.N) (p : Fin 5000) (k : Fin 128) :
    iblk3 V c 3 t (ix2 p k) = V c main_v70 (ix2 (row t p) k) := by
  show V c main_v70 (((cfg3.win 3).blk t).view.emb (ix2 p k)) = _
  refine congrArg (V c main_v70) (funext fun a => Fin.ext ?_)
  obtain ⟨-, -, -, -, -, -, e0, e1, -⟩ := idx_facts t
  match a with
  | ⟨0, _⟩ => show win3_3.index t (0 : Fin 2) * 5000 + 1 * p.val = t.val * 5000 + p.val; rw [e0]; omega
  | ⟨1, _⟩ => show win3_3.index t (1 : Fin 2) * 128 + 1 * k.val = k.val; rw [e1]; omega

theorem blk4 (c : Dev nD) (t : Fin cfg3.N) (p : Fin 5000) (k : Fin 128) :
    iblk3 V c 4 t (ix2 p k) = V c main_v12 (ix2 (row t p) k) := by
  show V c main_v12 (((cfg3.win 4).blk t).view.emb (ix2 p k)) = _
  refine congrArg (V c main_v12) (funext fun a => Fin.ext ?_)
  obtain ⟨-, -, -, -, -, -, -, -, e0, e1, -⟩ := idx_facts t
  match a with
  | ⟨0, _⟩ => show win3_4.index t (0 : Fin 2) * 5000 + 1 * p.val = t.val * 5000 + p.val; rw [e0]; omega
  | ⟨1, _⟩ => show win3_4.index t (1 : Fin 2) * 128 + 1 * k.val = k.val; rw [e1]; omega

/-- All the new rows, from the arrays the launch finds. -/
def G (c : Dev nD) : S50000x128.Idx → EReal :=
  updArr (N := 50000) (V c main_v45) (fun a k => V c main_v73 (ix2 a k)) (fun k => V c main_v76 (ix2 0 k))
    (V c main_v70) (V c main_v12)

/-- What block t writes back is block t of all the new rows. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5, out_eq]
  funext j
  obtain ⟨p, q, rfl⟩ : ∃ (p : Fin 5000) (q : Fin 128), j = ix2 p q := ⟨j 0, j 1, eq_ix2 j⟩
  have hemb : ((cfg3.win 5).blk t).view.emb (ix2 p q) = ix2 (row t p) q := by
    funext a; apply Fin.ext
    obtain ⟨-, -, -, -, -, -, -, -, -, -, e0, e1⟩ := idx_facts t
    match a with
    | ⟨0, _⟩ => show win3_5.index t (0 : Fin 2) * 5000 + 1 * p.val = t.val * 5000 + p.val; rw [e0]; omega
    | ⟨1, _⟩ => show win3_5.index t (1 : Fin 2) * 128 + 1 * q.val = q.val; rw [e1]; omega
  show updArr (N := 5000) _ _ _ _ _ (ix2 p q) = G V c (((cfg3.win 5).blk t).view.emb (ix2 p q))
  rw [hemb]
  unfold G updArr
  show upd (fun k => iblk3 V c 0 t (ix2 p k)) (fun a k => iblk3 V c 1 t (ix2 a k)) (fun k => iblk3 V c 2 t (ix2 0 k))
      (iblk3 V c 3 t (ix2 p q)) (iblk3 V c 4 t (ix2 p q)) q = _
  simp only [blk0, blk1, blk2, blk3, blk4]

theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v77).slice (win3_5.rect t)).set ↔ _
  rw [View.set_slice_whole, Rect.mem_set_unit]
  exact Iff.rfl

/-- The 10 blocks tile the array: row r lies in block r / 5000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  let t : Fin cfg3.N := ⟨(i 0).val / 5000, by rw [show cfg3.N = 10 from N_3]; omega⟩
  refine ⟨t, flush3_5 t, ?_⟩
  rw [mem_blk]
  obtain ⟨-, -, -, -, -, -, -, -, -, -, e0, e1⟩ := idx_facts t
  have ht : t.val = (i 0).val / 5000 := rfl
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- After the launch the result array holds all the new rows. -/
theorem final (c : Dev nD) : (dat3 V c).arrAt 5 cfg3.N = G V c :=
  (dat3 V c).arrAt_eq_of_cover 5 (G V c) (fun t _ => flushed_eq V c t) (cover)

end Cert.KernelIdeal.Self3

end
-- ==== Proof.KFoldB.lean ====
/-
  The kernel program's fold through its second layer (boundaries 5 to 8).
-/
import proofs.«161121_j12876311953727_2_alg».proof.Proof.KFoldA
import proofs.«161121_j12876311953727_2_alg».proof.Proof.KEdge2
import proofs.«161121_j12876311953727_2_alg».proof.Proof.KSelf3
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.Layer

variable (m : (ℓ : Loc nD τ sig) → Buf (Elt Ideal) ℓ) (ρ : Dev nD → PrngReg) (c : Dev nD)

set_option quotPrecheck false in
local notation "A0" => (m ((c : Thread nD τ).loc main_arg0))
set_option quotPrecheck false in
local notation "A1" => (m ((c : Thread nD τ).loc main_arg1))
set_option quotPrecheck false in
local notation "A2" => (m ((c : Thread nD τ).loc main_arg2))
set_option quotPrecheck false in
local notation "A3" => (m ((c : Thread nD τ).loc main_arg3))
set_option quotPrecheck false in
local notation "A4" => (m ((c : Thread nD τ).loc main_arg4))
set_option quotPrecheck false in
local notation "A5" => (m ((c : Thread nD τ).loc main_arg5))
set_option quotPrecheck false in
local notation "A6" => (m ((c : Thread nD τ).loc main_arg6))
set_option quotPrecheck false in
local notation "A7" => (m ((c : Thread nD τ).loc main_arg7))
set_option quotPrecheck false in
local notation "A8" => (m ((c : Thread nD τ).loc main_arg8))

/-! ### Boundary 5 -/

theorem at5_v13 : W5 m ρ c (Proc.devRef .tc main_v13) = Par.eab A2 :=
  (StableHlo.after_of_writes_sub hostOps2 _ hostOps2_writes (by decide)).trans (at4_v13 m ρ c)
theorem at5_v3 : W5 m ρ c (Proc.devRef .tc main_v3) = Par.dst A1 :=
  (StableHlo.after_of_writes_sub hostOps2 _ hostOps2_writes (by decide)).trans (at4_v3 m ρ c)
theorem at5_arg7 : W5 m ρ c (Proc.devRef .tc main_arg7) = A7 :=
  (StableHlo.after_of_writes_sub hostOps2 _ hostOps2_writes (by decide)).trans (at4_arg7 m ρ c)
theorem at5_arg8 : W5 m ρ c (Proc.devRef .tc main_arg8) = A8 :=
  (StableHlo.after_of_writes_sub hostOps2 _ hostOps2_writes (by decide)).trans (at4_arg8 m ρ c)
theorem at5_v12 : W5 m ρ c (Proc.devRef .tc main_v12) = Par.dinv A1 :=
  (StableHlo.after_of_writes_sub hostOps2 _ hostOps2_writes (by decide)).trans (at4_v12 m ρ c)
theorem at5_v45 : W5 m ρ c (Proc.devRef .tc main_v45) = X1 m c :=
  (StableHlo.after_of_writes_sub hostOps2 _ hostOps2_writes (by decide)).trans (at4_v45 m ρ c)
theorem at5_v1 : W5 m ρ c (Proc.devRef .tc main_v1) = Par.src A1 :=
  (StableHlo.after_of_writes_sub hostOps2 _ hostOps2_writes (by decide)).trans (at4_v1 m ρ c)
theorem at5_arg3 : W5 m ρ c (Proc.devRef .tc main_arg3) = A3 :=
  (StableHlo.after_of_writes_sub hostOps2 _ hostOps2_writes (by decide)).trans (at4_arg3 m ρ c)
theorem at5_arg4 : W5 m ρ c (Proc.devRef .tc main_arg4) = A4 :=
  (StableHlo.after_of_writes_sub hostOps2 _ hostOps2_writes (by decide)).trans (at4_arg4 m ρ c)
theorem at5_arg5 : W5 m ρ c (Proc.devRef .tc main_arg5) = A5 :=
  (StableHlo.after_of_writes_sub hostOps2 _ hostOps2_writes (by decide)).trans (at4_arg5 m ρ c)
theorem at5_arg6 : W5 m ρ c (Proc.devRef .tc main_arg6) = A6 :=
  (StableHlo.after_of_writes_sub hostOps2 _ hostOps2_writes (by decide)).trans (at4_arg6 m ρ c)
set_option maxHeartbeats 4000000 in
theorem at5_v53 : W5 m ρ c (Proc.devRef .tc main_v53) = Par.gath A1 (X1 m c) := by
  show StableHlo.after hostOps2 (W4 m ρ c) (Proc.devRef .tc main_v53) = _
  after_results_simp
  rw [at4_v45 m ρ c, at4_v1 m ρ c]
  rfl
set_option maxHeartbeats 4000000 in
theorem at5_v56 : W5 m ρ c (Proc.devRef .tc main_v56) = Par.w1b1 A3 := by
  show StableHlo.after hostOps2 (W4 m ρ c) (Proc.devRef .tc main_v56) = _
  after_results_simp
  rw [at4_arg3 m ρ c]
  rfl
set_option maxHeartbeats 4000000 in
theorem at5_v64 : W5 m ρ c (Proc.devRef .tc main_v64) = Par.b1r1 A4 := by
  show StableHlo.after hostOps2 (W4 m ρ c) (Proc.devRef .tc main_v64) = _
  after_results_simp
  rw [at4_arg4 m ρ c]
  rfl
set_option maxHeartbeats 4000000 in
theorem at5_v61 : W5 m ρ c (Proc.devRef .tc main_v61) = Par.w2b1 A5 := by
  show StableHlo.after hostOps2 (W4 m ρ c) (Proc.devRef .tc main_v61) = _
  after_results_simp
  rw [at4_arg5 m ρ c]
  rfl
set_option maxHeartbeats 4000000 in
theorem at5_v65 : W5 m ρ c (Proc.devRef .tc main_v65) = Par.b2r1 A6 := by
  show StableHlo.after hostOps2 (W4 m ρ c) (Proc.devRef .tc main_v65) = _
  after_results_simp
  rw [at4_arg6 m ρ c]
  rfl

/-! ### Boundary 6 -/

theorem at6_v13 : W6 m ρ c (Proc.devRef .tc main_v13) = Par.eab A2 :=
  (W6_arr m ρ c 1).trans (((dat2 (V5 m ρ) c).arrAt_in 1 rfl _).trans ((A_eq2 (V5 m ρ) c 1).trans (at5_v13 m ρ c)))
theorem at6_v3 : W6 m ρ c (Proc.devRef .tc main_v3) = Par.dst A1 :=
  (W6_of_ne m ρ c main_v3 (by decide)).trans (at5_v3 m ρ c)
theorem at6_arg7 : W6 m ρ c (Proc.devRef .tc main_arg7) = A7 :=
  (W6_of_ne m ρ c main_arg7 (by decide)).trans (at5_arg7 m ρ c)
theorem at6_arg8 : W6 m ρ c (Proc.devRef .tc main_arg8) = A8 :=
  (W6_of_ne m ρ c main_arg8 (by decide)).trans (at5_arg8 m ρ c)
theorem at6_v12 : W6 m ρ c (Proc.devRef .tc main_v12) = Par.dinv A1 :=
  (W6_of_ne m ρ c main_v12 (by decide)).trans (at5_v12 m ρ c)
theorem at6_v45 : W6 m ρ c (Proc.devRef .tc main_v45) = X1 m c :=
  (W6_of_ne m ρ c main_v45 (by decide)).trans (at5_v45 m ρ c)
theorem at6_v1 : W6 m ρ c (Proc.devRef .tc main_v1) = Par.src A1 :=
  (W6_of_ne m ρ c main_v1 (by decide)).trans (at5_v1 m ρ c)
theorem at6_arg3 : W6 m ρ c (Proc.devRef .tc main_arg3) = A3 :=
  (W6_of_ne m ρ c main_arg3 (by decide)).trans (at5_arg3 m ρ c)
theorem at6_arg4 : W6 m ρ c (Proc.devRef .tc main_arg4) = A4 :=
  (W6_of_ne m ρ c main_arg4 (by decide)).trans (at5_arg4 m ρ c)
theorem at6_arg5 : W6 m ρ c (Proc.devRef .tc main_arg5) = A5 :=
  (W6_of_ne m ρ c main_arg5 (by decide)).trans (at5_arg5 m ρ c)
theorem at6_arg6 : W6 m ρ c (Proc.devRef .tc main_arg6) = A6 :=
  (W6_of_ne m ρ c main_arg6 (by decide)).trans (at5_arg6 m ρ c)
theorem at6_v66 : W6 m ρ c (Proc.devRef .tc main_v66) = KL.msg1 A1 A2 A3 A4 A5 A6 (X1 m c) := by
  refine (W6_arr m ρ c 6).trans ?_
  rw [Edge2.final]
  unfold Edge2.G
  dsimp only [V5]
  rw [at5_v53 m ρ c, at5_v13 m ρ c, at5_v56 m ρ c, at5_v64 m ρ c, at5_v61 m ρ c, at5_v65 m ρ c]
  rfl

/-! ### Boundary 7 -/

theorem at7_v13 : W7 m ρ c (Proc.devRef .tc main_v13) = Par.eab A2 :=
  (StableHlo.after_of_writes_sub hostOps3 _ hostOps3_writes (by decide)).trans (at6_v13 m ρ c)
theorem at7_v3 : W7 m ρ c (Proc.devRef .tc main_v3) = Par.dst A1 :=
  (StableHlo.after_of_writes_sub hostOps3 _ hostOps3_writes (by decide)).trans (at6_v3 m ρ c)
theorem at7_arg7 : W7 m ρ c (Proc.devRef .tc main_arg7) = A7 :=
  (StableHlo.after_of_writes_sub hostOps3 _ hostOps3_writes (by decide)).trans (at6_arg7 m ρ c)
theorem at7_arg8 : W7 m ρ c (Proc.devRef .tc main_arg8) = A8 :=
  (StableHlo.after_of_writes_sub hostOps3 _ hostOps3_writes (by decide)).trans (at6_arg8 m ρ c)
theorem at7_v12 : W7 m ρ c (Proc.devRef .tc main_v12) = Par.dinv A1 :=
  (StableHlo.after_of_writes_sub hostOps3 _ hostOps3_writes (by decide)).trans (at6_v12 m ρ c)
theorem at7_v45 : W7 m ρ c (Proc.devRef .tc main_v45) = X1 m c :=
  (StableHlo.after_of_writes_sub hostOps3 _ hostOps3_writes (by decide)).trans (at6_v45 m ρ c)
theorem at7_v1 : W7 m ρ c (Proc.devRef .tc main_v1) = Par.src A1 :=
  (StableHlo.after_of_writes_sub hostOps3 _ hostOps3_writes (by decide)).trans (at6_v1 m ρ c)
theorem at7_arg3 : W7 m ρ c (Proc.devRef .tc main_arg3) = A3 :=
  (StableHlo.after_of_writes_sub hostOps3 _ hostOps3_writes (by decide)).trans (at6_arg3 m ρ c)
theorem at7_arg4 : W7 m ρ c (Proc.devRef .tc main_arg4) = A4 :=
  (StableHlo.after_of_writes_sub hostOps3 _ hostOps3_writes (by decide)).trans (at6_arg4 m ρ c)
theorem at7_arg5 : W7 m ρ c (Proc.devRef .tc main_arg5) = A5 :=
  (StableHlo.after_of_writes_sub hostOps3 _ hostOps3_writes (by decide)).trans (at6_arg5 m ρ c)
theorem at7_arg6 : W7 m ρ c (Proc.devRef .tc main_arg6) = A6 :=
  (StableHlo.after_of_writes_sub hostOps3 _ hostOps3_writes (by decide)).trans (at6_arg6 m ρ c)
set_option maxHeartbeats 4000000 in
theorem at7_v73 : W7 m ρ c (Proc.devRef .tc main_v73) = Par.wsb1 A7 := by
  show StableHlo.after hostOps3 (W6 m ρ c) (Proc.devRef .tc main_v73) = _
  after_results_simp
  rw [at6_arg7 m ρ c]
  rfl
set_option maxHeartbeats 4000000 in
theorem at7_v76 : W7 m ρ c (Proc.devRef .tc main_v76) = Par.bsr1 A8 := by
  show StableHlo.after hostOps3 (W6 m ρ c) (Proc.devRef .tc main_v76) = _
  after_results_simp
  rw [at6_arg8 m ρ c]
  rfl
set_option maxHeartbeats 4000000 in
theorem at7_v70 : W7 m ρ c (Proc.devRef .tc main_v70) = Par.scat A1 (KL.msg1 A1 A2 A3 A4 A5 A6 (X1 m c)) := by
  show StableHlo.after hostOps3 (W6 m ρ c) (Proc.devRef .tc main_v70) = _
  after_results_simp
  rw [at6_v3 m ρ c, at6_v66 m ρ c]
  rfl

/-! ### Boundary 8 -/

theorem at8_v13 : W8 m ρ c (Proc.devRef .tc main_v13) = Par.eab A2 :=
  (W8_of_ne m ρ c main_v13 (by decide)).trans (at7_v13 m ρ c)
theorem at8_v3 : W8 m ρ c (Proc.devRef .tc main_v3) = Par.dst A1 :=
  (W8_of_ne m ρ c main_v3 (by decide)).trans (at7_v3 m ρ c)
theorem at8_arg7 : W8 m ρ c (Proc.devRef .tc main_arg7) = A7 :=
  (W8_of_ne m ρ c main_arg7 (by decide)).trans (at7_arg7 m ρ c)
theorem at8_arg8 : W8 m ρ c (Proc.devRef .tc main_arg8) = A8 :=
  (W8_of_ne m ρ c main_arg8 (by decide)).trans (at7_arg8 m ρ c)
theorem at8_v12 : W8 m ρ c (Proc.devRef .tc main_v12) = Par.dinv A1 :=
  (W8_arr m ρ c 4).trans (((dat3 (V7 m ρ) c).arrAt_in 4 rfl _).trans ((A_eq3 (V7 m ρ) c 4).trans (at7_v12 m ρ c)))
theorem at8_v1 : W8 m ρ c (Proc.devRef .tc main_v1) = Par.src A1 :=
  (W8_of_ne m ρ c main_v1 (by decide)).trans (at7_v1 m ρ c)
theorem at8_arg3 : W8 m ρ c (Proc.devRef .tc main_arg3) = A3 :=
  (W8_of_ne m ρ c main_arg3 (by decide)).trans (at7_arg3 m ρ c)
theorem at8_arg4 : W8 m ρ c (Proc.devRef .tc main_arg4) = A4 :=
  (W8_of_ne m ρ c main_arg4 (by decide)).trans (at7_arg4 m ρ c)
theorem at8_arg5 : W8 m ρ c (Proc.devRef .tc main_arg5) = A5 :=
  (W8_of_ne m ρ c main_arg5 (by decide)).trans (at7_arg5 m ρ c)
theorem at8_arg6 : W8 m ρ c (Proc.devRef .tc main_arg6) = A6 :=
  (W8_of_ne m ρ c main_arg6 (by decide)).trans (at7_arg6 m ρ c)
theorem at8_v77 : W8 m ρ c (Proc.devRef .tc main_v77) = X2 m c := by
  refine (W8_arr m ρ c 5).trans ?_
  rw [Self3.final]
  unfold Self3.G
  dsimp only [V7]
  rw [at7_v45 m ρ c, at7_v73 m ρ c, at7_v76 m ρ c, at7_v70 m ρ c, at7_v12 m ρ c]
  rfl

end Cert.KernelIdeal.Fold

end
-- ==== Proof.KEdge4.lean ====
/-
  Kernel launch 4 (the edge perceptron), as one function of the arrays it finds.

  The launch walks 100 blocks of 8000 edges. At a block it loads the block's rows of gathered node features and of edge
  features and the whole weight and bias arrays, and stores, for each edge of the block, the message of that edge: the
  two products of the first layer (node part and edge part of the joined features) added, the bias added, clipped below at
  zero, multiplied by the second weights, the second bias added. A message depends only on its own edge's rows, so
  block t of the result is rows 8000·t … 8000·t + 7999 of the array of all messages, and the 100 blocks tile the array.
-/
import proofs.«161121_j12876311953727_2_alg».proof.Proof.Gen.KernelIdeal.Frame
import proofs.«161121_j12876311953727_2_alg».proof.Proof.LayerSpec
import proofs.«161121_j12876311953727_2_alg».proof.Proof.LibDotRows
import Idealize.ShloMosaic.Lib.Pipeline.Value
import Idealize.ShloMosaic.Lib.ValueLayout

set_option maxRecDepth 16384

noncomputable section

namespace Cert.KernelIdeal.Edge4

open Cert.KernelIdeal Cert.KernelIdeal.Gen Idealize.ShloMosaic Idealize.ShloMosaic.TcCoe Idealize.ShloMosaic.ValueIdx
open Idealize.SL.Sem Cert.Layer
open Idealize.ShloMosaic.Pipeline (Dat)
open scoped BigOperators

theorem hz : (![0, 0] : Fin 2 → Nat) = fun _ => 0 := funext fun a => by fin_cases a <;> rfl

theorem dotA : dot_S8000x128_S128x128_S8000x128_1_0_0_1_n_n = DotDims.plain 8000 128 128 := rfl
theorem dotB : dot_S8000x16_S16x128_S8000x128_1_0_0_1_n_n = DotDims.plain 8000 16 128 := rfl

/-- The body's arithmetic at row p, lane q of a block. -/
theorem pay_apply (v0 : Vec Ideal S8000x128 .bf16) (v2 : Vec Ideal S8000x16 .bf16) (v4 : Vec Ideal S128x128 .bf16)
    (v6 : Vec Ideal S16x128 .bf16) (v11 : Vec Ideal S1x128 .f32) (v18 : Vec Ideal S128x128 .bf16) (v21 : Vec Ideal S1x128 .f32)
    (p : Fin 8000) (q : Fin 128) :
    k4_pay1 (F := Ideal) v0 v2 v4 v6 v11 v18 v21 (ix2 p q)
      = ∑ k : Fin 128, max ((∑ i : Fin 128, v0 (ix2 p i) * v4 (ix2 i k) + ∑ i : Fin 16, v2 (ix2 p i) * v6 (ix2 i k))
            + v11 (ix2 0 k)) 0 * v18 (ix2 k q) + v21 (ix2 0 q) := by
  unfold k4_pay1
  simp only [shapeCast_self, dotA, dotB]
  rw [truncf_apply, addf_apply, Cert.Lib.DotRows.matmul_plain_apply, broadcastTo_1b_ab_apply]
  congr 1
  refine Finset.sum_congr rfl fun k _ => ?_
  congr 1
  rw [truncf_apply, maximumf_apply, addf_apply, addf_apply, Cert.Lib.DotRows.matmul_plain_apply,
    Cert.Lib.DotRows.matmul_plain_apply, broadcastTo_1b_ab_apply, broadcast_apply, Ideal.ofBits_def, Ideal.ofBits_zero_f32]

/-- The first 128 rows of the weight block are the node part of the joined features … -/
theorem ld_top (x2 : Vec Ideal S144x128 .bf16) (i k : Fin 128) : View.ld x2 r4_2 (ix2 i k) = x2 (ix2 (inL i) k) := by
  show x2 (r4_2.idx (ix2 i k)) = _
  refine congrArg x2 (funext fun a => Fin.ext ?_)
  match a with
  | ⟨0, _⟩ => show 0 + 1 * i.val = i.val; omega
  | ⟨1, _⟩ => show 0 + 1 * k.val = k.val; omega

/-- … and the last 16 rows the edge part. -/
theorem ld_bot (x2 : Vec Ideal S144x128 .bf16) (i : Fin 16) (k : Fin 128) : View.ld x2 r4_3 (ix2 i k) = x2 (ix2 (inR i) k) := by
  show x2 (r4_3.idx (ix2 i k)) = _
  refine congrArg x2 (funext fun a => Fin.ext ?_)
  match a with
  | ⟨0, _⟩ => show 128 + 1 * i.val = 128 + i.val; omega
  | ⟨1, _⟩ => show 0 + 1 * k.val = k.val; omega

/-- What the body leaves in the output block is the array of the block's messages. -/
theorem out_eq (x0 : Vec Ideal S8000x128 .bf16) (x1 : Vec Ideal S8000x16 .bf16) (x2 : Vec Ideal S144x128 .bf16)
    (x3 : Vec Ideal S1x128 .f32) (x4 : Vec Ideal S128x128 .bf16) (x5 : Vec Ideal S1x128 .f32) :
    out4_6 (F := Ideal) x0 x1 x2 x3 x4 x5
      = msgArr (E := 8000) x0 x1 (fun a k => x2 (ix2 a k)) (fun k => x3 (ix2 0 k)) (fun a k => x4 (ix2 a k)) (fun k => x5 (ix2 0 k)) := by
  unfold out4_6
  rw [View.canon_unit_zero hz]
  simp only [View.ld_unit_zero (S := S8000x128) hz, View.ld_unit_zero (S := S8000x16) hz,
    View.ld_unit_zero (S := S1x128) hz, View.ld_unit_zero (S := S128x128) hz]
  have hT : View.ld x2 r4_2 = fun y : S128x128.Idx => x2 (ix2 (inL (y 0)) (y 1)) := funext fun y => by
    obtain ⟨i, k, rfl⟩ : ∃ (i k : Fin 128), y = ix2 i k := ⟨y 0, y 1, eq_ix2 y⟩
    exact ld_top x2 i k
  have hB : View.ld x2 r4_3 = fun y : S16x128.Idx => x2 (ix2 (inR (y 0)) (y 1)) := funext fun y => by
    obtain ⟨i, k, rfl⟩ : ∃ (i : Fin 16) (k : Fin 128), y = ix2 i k := ⟨y 0, y 1, eq_ix2 y⟩
    exact ld_bot x2 i k
  rw [hT, hB]
  funext j
  obtain ⟨p, q, rfl⟩ : ∃ (p : Fin 8000) (q : Fin 128), j = ix2 p q := ⟨j 0, j 1, eq_ix2 j⟩
  refine (pay_apply _ _ _ _ _ _ _ p q).trans ?_
  rfl

variable (V : (c : Dev nD) → (b : Ref sig .tc) → Buf (Elt Ideal) ((c : Thread nD τ).loc b))

/-- The printed index maps over the grid: the three blocked windows sit at block t, the four whole windows at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

theorem t_lt (t : Fin cfg4.N) : t.val < 100 := lt_of_lt_of_eq t.isLt N_4

/-- Row r of the whole arrays, for a row of block t. -/
def row (t : Fin cfg4.N) (p : Fin 8000) : Fin 800000 := ⟨t.val * 8000 + p.val, by have := t_lt t; have := p.isLt; omega⟩

theorem blk0 (c : Dev nD) (t : Fin cfg4.N) (p : Fin 8000) (k : Fin 128) :
    iblk4 V c 0 t (ix2 p k) = V c main_v85 (ix2 (row t p) k) := by
  show V c main_v85 (((cfg4.win 0).blk t).view.emb (ix2 p k)) = _
  refine congrArg (V c main_v85) (funext fun a => Fin.ext ?_)
  obtain ⟨e0, e1, -⟩ := idx_facts t
  match a with
  | ⟨0, _⟩ => show win4_0.index t (0 : Fin 2) * 8000 + 1 * p.val = t.val * 8000 + p.val; rw [e0]; omega
  | ⟨1, _⟩ => show win4_0.index t (1 : Fin 2) * 128 + 1 * k.val = k.val; rw [e1]; omega

theorem blk1 (c : Dev nD) (t : Fin cfg4.N) (p : Fin 8000) (k : Fin 16) :
    iblk4 V c 1 t (ix2 p k) = V c main_v13 (ix2 (row t p) k) := by
  show V c main_v13 (((cfg4.win 1).blk t).view.emb (ix2 p k)) = _
  refine congrArg (V c main_v13) (funext fun a => Fin.ext ?_)
  obtain ⟨-, -, e0, e1, -⟩ := idx_facts t
  match a with
  | ⟨0, _⟩ => show win4_1.index t (0 : Fin 2) * 8000 + 1 * p.val = t.val * 8000 + p.val; rw [e0]; omega
  | ⟨1, _⟩ => show win4_1.index t (1 : Fin 2) * 16 + 1 * k.val = k.val; rw [e1]; omega

theorem blk2 (c : Dev nD) (t : Fin cfg4.N) (a : Fin 144) (k : Fin 128) :
    iblk4 V c 2 t (ix2 a k) = V c main_v88 (ix2 a k) := by
  show V c main_v88 (((cfg4.win 2).blk t).view.emb (ix2 a k)) = _
  refine congrArg (V c main_v88) (funext fun b => Fin.ext ?_)
  obtain ⟨-, -, -, -, e0, e1, -⟩ := idx_facts t
  match b with
  | ⟨0, _⟩ => show win4_2.index t (0 : Fin 2) * 144 + 1 * a.val = a.val; rw [e0]; omega
  | ⟨1, _⟩ => show win4_2.index t (1 : Fin 2) * 128 + 1 * k.val = k.val; rw [e1]; omega

theorem blk3 (c : Dev nD) (t : Fin cfg4.N) (k : Fin 128) :
    iblk4 V c 3 t (ix2 0 k) = V c main_v96 (ix2 0 k) := by
  show V c main_v96 (((cfg4.win 3).blk t).view.emb (ix2 0 k)) = _
  refine congrArg (V c main_v96) (funext fun b => Fin.ext ?_)
  obtain ⟨-, -, -, -, -, -, e0, e1, -⟩ := idx_facts t
  match b with
  | ⟨0, _⟩ => show win4_3.index t (0 : Fin 2) * 1 + 1 * 0 = 0; rw [e0]
  | ⟨1, _⟩ => show win4_3.index t (1 : Fin 2) * 128 + 1 * k.val = k.val; rw [e1]; omega

theorem blk4 (c : Dev nD) (t : Fin cfg4.N) (a k : Fin 128) :
    iblk4 V c 4 t (ix2 a k) = V c main_v93 (ix2 a k) := by
  show V c main_v93 (((cfg4.win 4).blk t).view.emb (ix2 a k)) = _
  refine congrArg (V c main_v93) (funext fun b => Fin.ext ?_)
  obtain ⟨-, -, -, -, -, -, -, -, e0, e1, -⟩ := idx_facts t
  match b with
  | ⟨0, _⟩ => show win4_4.index t (0 : Fin 2) * 128 + 1 * a.val = a.val; rw [e0]; omega
  | ⟨1, _⟩ => show win4_4.index t (1 : Fin 2) * 128 + 1 * k.val = k.val; rw [e1]; omega

theorem blk5 (c : Dev nD) (t : Fin cfg4.N) (k : Fin 128) :
    iblk4 V c 5 t (ix2 0 k) = V c main_v97 (ix2 0 k) := by
  show V c main_v97 (((cfg4.win 5).blk t).view.emb (ix2 0 k)) = _
  refine congrArg (V c main_v97) (funext fun b => Fin.ext ?_)
  obtain ⟨-, -, -, -, -, -, -, -, -, -, e0, e1, -⟩ := idx_facts t
  match b with
  | ⟨0, _⟩ => show win4_5.index t (0 : Fin 2) * 1 + 1 * 0 = 0; rw [e0]
  | ⟨1, _⟩ => show win4_5.index t (1 : Fin 2) * 128 + 1 * k.val = k.val; rw [e1]; omega

/-- All the messages, from the arrays the launch finds. -/
def G (c : Dev nD) : S800000x128.Idx → EReal :=
  msgArr (E := 800000) (V c main_v85) (V c main_v13) (fun a k => V c main_v88 (ix2 a k)) (fun k => V c main_v96 (ix2 0 k))
    (fun a k => V c main_v93 (ix2 a k)) (fun k => V c main_v97 (ix2 0 k))

/-- What block t writes back is block t of all the messages. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6, out_eq]
  funext j
  obtain ⟨p, q, rfl⟩ : ∃ (p : Fin 8000) (q : Fin 128), j = ix2 p q := ⟨j 0, j 1, eq_ix2 j⟩
  have hemb : ((cfg4.win 6).blk t).view.emb (ix2 p q) = ix2 (row t p) q := by
    funext a; apply Fin.ext
    obtain ⟨-, -, -, -, -, -, -, -, -, -, -, -, e0, e1⟩ := idx_facts t
    match a with
    | ⟨0, _⟩ => show win4_6.index t (0 : Fin 2) * 8000 + 1 * p.val = t.val * 8000 + p.val; rw [e0]; omega
    | ⟨1, _⟩ => show win4_6.index t (1 : Fin 2) * 128 + 1 * q.val = q.val; rw [e1]; omega
  show msgArr (E := 8000) _ _ _ _ _ _ (ix2 p q) = G V c (((cfg4.win 6).blk t).view.emb (ix2 p q))
  rw [hemb]
  unfold G msgArr
  show msg (hid (fun k => iblk4 V c 0 t (ix2 p k)) (fun k => iblk4 V c 1 t (ix2 p k)) (fun a k => iblk4 V c 2 t (ix2 a k))
      (fun k => iblk4 V c 3 t (ix2 0 k))) (fun a k => iblk4 V c 4 t (ix2 a k)) (fun k => iblk4 V c 5 t (ix2 0 k)) q = _
  simp only [blk0, blk1, blk2, blk3, blk4, blk5]

theorem mem_blk (t : Fin cfg4.N) (i : S800000x128.Idx) :
    i ∈ ((cfg4.win 6).blk t).view.set ↔ ∀ a : Fin 2, win4_6.index t a * S8000x128.size a ≤ (i a).val ∧ (i a).val < win4_6.index t a * S8000x128.size a + S8000x128.size a := by
  show i ∈ ((View.whole main_v98).slice (win4_6.rect t)).set ↔ _
  rw [View.set_slice_whole, Rect.mem_set_unit]
  exact Iff.rfl

/-- The 100 blocks tile the array: row r lies in block r / 8000. -/
theorem cover (i : S800000x128.Idx) : ∃ t : Fin cfg4.N, (cfg4.win 6).flush t = true ∧ i ∈ ((cfg4.win 6).blk t).view.set := by
  have hi0 : (i 0).val < 800000 := (i 0).isLt
  have hi1 : (i 1).val < 128 := (i 1).isLt
  let t : Fin cfg4.N := ⟨(i 0).val / 8000, by rw [show cfg4.N = 100 from N_4]; omega⟩
  refine ⟨t, flush4_6 t, ?_⟩
  rw [mem_blk]
  obtain ⟨-, -, -, -, -, -, -, -, -, -, -, -, e0, e1⟩ := idx_facts t
  have ht : t.val = (i 0).val / 8000 := rfl
  intro a
  match a with
  | ⟨0, _⟩ => show win4_6.index t (0 : Fin 2) * 8000 ≤ (i 0).val ∧ (i 0).val < win4_6.index t (0 : Fin 2) * 8000 + 8000; rw [e0, ht]; omega
  | ⟨1, _⟩ => show win4_6.index t (1 : Fin 2) * 128 ≤ (i 1).val ∧ (i 1).val < win4_6.index t (1 : Fin 2) * 128 + 128; rw [e1]; omega

/-- After the launch the result array holds all the messages. -/
theorem final (c : Dev nD) : (dat4 V c).arrAt 6 cfg4.N = G V c :=
  (dat4 V c).arrAt_eq_of_cover 6 (G V c) (fun t _ => flushed_eq V c t) (cover)

end Cert.KernelIdeal.Edge4

end
-- ==== Proof.KSelf5.lean ====
/-
  Kernel launch 5 (the node update), as one function of the arrays it finds.

  The launch walks 10 blocks of 5000 nodes. At a block it loads the block's rows of the node features, of the summed
  messages and of the reciprocal degrees, and the whole weight and bias arrays, and stores for each node of the block its
  new row: the product with the weights, the bias added, the summed message times the reciprocal degree added. A new row
  depends only on its own node's rows, so block t of the result is rows 5000·t … 5000·t + 4999 of the array of all new
  rows, and the 10 blocks tile the array.
-/
import proofs.«161121_j12876311953727_2_alg».proof.Proof.Gen.KernelIdeal.Frame
import proofs.«161121_j12876311953727_2_alg».proof.Proof.LayerSpec
import proofs.«161121_j12876311953727_2_alg».proof.Proof.LibDotRows
import Idealize.ShloMosaic.Lib.Pipeline.Value
import Idealize.ShloMosaic.Lib.ValueLayout

set_option maxRecDepth 16384

noncomputable section

namespace Cert.KernelIdeal.Self5

open Cert.KernelIdeal Cert.KernelIdeal.Gen Idealize.ShloMosaic Idealize.ShloMosaic.TcCoe Idealize.ShloMosaic.ValueIdx
open Idealize.SL.Sem Cert.Layer
open Idealize.ShloMosaic.Pipeline (Dat)
open scoped BigOperators

theorem hz : (![0, 0] : Fin 2 → Nat) = fun _ => 0 := funext fun a => by fin_cases a <;> rfl

theorem dotA : dot_S5000x128_S128x128_S5000x128_1_0_0_1_n_n = DotDims.plain 5000 128 128 := rfl

/-- The body's arithmetic at row p, lane q of a block. -/
theorem pay_apply (v0 : Vec Ideal S5000x128 .f32) (v2 : Vec Ideal S128x128 .bf16) (v5 : Vec Ideal S1x128 .f32)
    (v9 : Vec Ideal S5000x128 .f32) (v11 : Vec Ideal S5000x128 .f32) (p : Fin 5000) (q : Fin 128) :
    k5_pay1 (F := Ideal) v0 v2 v5 v9 v11 (ix2 p q)
      = (∑ k : Fin 128, v0 (ix2 p k) * v2 (ix2 k q) + v5 (ix2 0 q)) + v9 (ix2 p q) * v11 (ix2 p q) := by
  unfold k5_pay1
  simp only [shapeCast_self, dotA]
  rw [addf_apply, addf_apply, mulf_apply, Cert.Lib.DotRows.matmul_plain_apply, broadcastTo_1b_ab_apply]
  rfl

/-- What the body leaves in the output block is the array of the block's new rows. -/
theorem out_eq (x0 : Vec Ideal S5000x128 .f32) (x1 : Vec Ideal S128x128 .bf16) (x2 : Vec Ideal S1x128 .f32)
    (x3 : Vec Ideal S5000x128 .f32) (x4 : Vec Ideal S5000x128 .f32) :
    out5_5 (F := Ideal) x0 x1 x2 x3 x4
      = updArr (N := 5000) x0 (fun a k => x1 (ix2 a k)) (fun k => x2 (ix2 0 k)) x3 x4 := by
  unfold out5_5
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  exact pay_apply _ _ _ _ _ p q

variable (V : (c : Dev nD) → (b : Ref sig .tc) → Buf (Elt Ideal) ((c : Thread nD τ).loc b))

/-- The printed index maps over the grid: the four blocked windows sit at block t, the two whole windows at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem t_lt (t : Fin cfg5.N) : t.val < 10 := lt_of_lt_of_eq t.isLt N_5

/-- Row r of the whole arrays, for a row of block t. -/
def row (t : Fin cfg5.N) (p : Fin 5000) : Fin 50000 := ⟨t.val * 5000 + p.val, by have := t_lt t; have := p.isLt; omega⟩

theorem blk0 (c : Dev nD) (t : Fin cfg5.N) (p : Fin 5000) (k : Fin 128) :
    iblk5 V c 0 t (ix2 p k) = V c main_v77 (ix2 (row t p) k) := by
  show V c main_v77 (((cfg5.win 0).blk t).view.emb (ix2 p k)) = _
  refine congrArg (V c main_v77) (funext fun a => Fin.ext ?_)
  obtain ⟨e0, e1, -⟩ := idx_facts t
  match a with
  | ⟨0, _⟩ => show win5_0.index t (0 : Fin 2) * 5000 + 1 * p.val = t.val * 5000 + p.val; rw [e0]; omega
  | ⟨1, _⟩ => show win5_0.index t (1 : Fin 2) * 128 + 1 * k.val = k.val; rw [e1]; omega

theorem blk1 (c : Dev nD) (t : Fin cfg5.N) (a k : Fin 128) :
    iblk5 V c 1 t (ix2 a k) = V c main_v105 (ix2 a k) := by
  show V c main_v105 (((cfg5.win 1).blk t).view.emb (ix2 a k)) = _
  refine congrArg (V c main_v105) (funext fun b => Fin.ext ?_)
  obtain ⟨-, -, e0, e1, -⟩ := idx_facts t
  match b with
  | ⟨0, _⟩ => show win5_1.index t (0 : Fin 2) * 128 + 1 * a.val = a.val; rw [e0]; omega
  | ⟨1, _⟩ => show win5_1.index t (1 : Fin 2) * 128 + 1 * k.val = k.val; rw [e1]; omega

theorem blk2 (c : Dev nD) (t : Fin cfg5.N) (k : Fin 128) :
    iblk5 V c 2 t (ix2 0 k) = V c main_v108 (ix2 0 k) := by
  show V c main_v108 (((cfg5.win 2).blk t).view.emb (ix2 0 k)) = _
  refine congrArg (V c main_v108) (funext fun b => Fin.ext ?_)
  obtain ⟨-, -, -, -, e0, e1, -⟩ := idx_facts t
  match b with
  | ⟨0, _⟩ => show win5_2.index t (0 : Fin 2) * 1 + 1 * 0 = 0; rw [e0]
  | ⟨1, _⟩ => show win5_2.index t (1 : Fin 2) * 128 + 1 * k.val = k.val; rw [e1]; omega

theorem blk3 (c : Dev nD) (t : Fin cfg5.N) (p : Fin 5000) (k : Fin 128) :
    iblk5 V c 3 t (ix2 p k) = V c main_v102 (ix2 (row t p) k) := by
  show V c main_v102 (((cfg5.win 3).blk t).view.emb (ix2 p k)) = _
  refine congrArg (V c main_v102) (funext fun a => Fin.ext ?_)
  obtain ⟨-, -, -, -, -, -, e0, e1, -⟩ := idx_facts t
  match a with
  | ⟨0, _⟩ => show win5_3.index t (0 : Fin 2) * 5000 + 1 * p.val = t.val * 5000 + p.val; rw [e0]; omega
  | ⟨1, _⟩ => show win5_3.index t (1 : Fin 2) * 128 + 1 * k.val = k.val; rw [e1]; omega

theorem blk4 (c : Dev nD) (t : Fin cfg5.N) (p : Fin 5000) (k : Fin 128) :
    iblk5 V c 4 t (ix2 p k) = V c main_v12 (ix2 (row t p) k) := by
  show V c main_v12 (((cfg5.win 4).blk t).view.emb (ix2 p k)) = _
  refine congrArg (V c main_v12) (funext fun a => Fin.ext ?_)
  obtain ⟨-, -, -, -, -, -, -, -, e0, e1, -⟩ := idx_facts t
  match a with
  | ⟨0, _⟩ => show win5_4.index t (0 : Fin 2) * 5000 + 1 * p.val = t.val * 5000 + p.val; rw [e0]; omega
  | ⟨1, _⟩ => show win5_4.index t (1 : Fin 2) * 128 + 1 * k.val = k.val; rw [e1]; omega

/-- All the new rows, from the arrays the launch finds. -/
def G (c : Dev nD) : S50000x128.Idx → EReal :=
  updArr (N := 50000) (V c main_v77) (fun a k => V c main_v105 (ix2 a k)) (fun k => V c main_v108 (ix2 0 k))
    (V c main_v102) (V c main_v12)

/-- What block t writes back is block t of all the new rows. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5, out_eq]
  funext j
  obtain ⟨p, q, rfl⟩ : ∃ (p : Fin 5000) (q : Fin 128), j = ix2 p q := ⟨j 0, j 1, eq_ix2 j⟩
  have hemb : ((cfg5.win 5).blk t).view.emb (ix2 p q) = ix2 (row t p) q := by
    funext a; apply Fin.ext
    obtain ⟨-, -, -, -, -, -, -, -, -, -, e0, e1⟩ := idx_facts t
    match a with
    | ⟨0, _⟩ => show win5_5.index t (0 : Fin 2) * 5000 + 1 * p.val = t.val * 5000 + p.val; rw [e0]; omega
    | ⟨1, _⟩ => show win5_5.index t (1 : Fin 2) * 128 + 1 * q.val = q.val; rw [e1]; omega
  show updArr (N := 5000) _ _ _ _ _ (ix2 p q) = G V c (((cfg5.win 5).blk t).view.emb (ix2 p q))
  rw [hemb]
  unfold G updArr
  show upd (fun k => iblk5 V c 0 t (ix2 p k)) (fun a k => iblk5 V c 1 t (ix2 a k)) (fun k => iblk5 V c 2 t (ix2 0 k))
      (iblk5 V c 3 t (ix2 p q)) (iblk5 V c 4 t (ix2 p q)) q = _
  simp only [blk0, blk1, blk2, blk3, blk4]

theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v109).slice (win5_5.rect t)).set ↔ _
  rw [View.set_slice_whole, Rect.mem_set_unit]
  exact Iff.rfl

/-- The 10 blocks tile the array: row r lies in block r / 5000. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  let t : Fin cfg5.N := ⟨(i 0).val / 5000, by rw [show cfg5.N = 10 from N_5]; omega⟩
  refine ⟨t, flush5_5 t, ?_⟩
  rw [mem_blk]
  obtain ⟨-, -, -, -, -, -, -, -, -, -, e0, e1⟩ := idx_facts t
  have ht : t.val = (i 0).val / 5000 := rfl
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 128 ≤ (i 1).val ∧ (i 1).val < win5_5.index t (1 : Fin 2) * 128 + 128; rw [e1]; omega

/-- After the launch the result array holds all the new rows. -/
theorem final (c : Dev nD) : (dat5 V c).arrAt 5 cfg5.N = G V c :=
  (dat5 V c).arrAt_eq_of_cover 5 (G V c) (fun t _ => flushed_eq V c t) (cover)

end Cert.KernelIdeal.Self5

end
-- ==== Proof.KFoldC.lean ====
/-
  The kernel program's fold through its third layer (boundaries 9 to 12): the result.
-/
import proofs.«161121_j12876311953727_2_alg».proof.Proof.KFoldB
import proofs.«161121_j12876311953727_2_alg».proof.Proof.KEdge4
import proofs.«161121_j12876311953727_2_alg».proof.Proof.KSelf5
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.Layer

variable (m : (ℓ : Loc nD τ sig) → Buf (Elt Ideal) ℓ) (ρ : Dev nD → PrngReg) (c : Dev nD)

set_option quotPrecheck false in
local notation "A0" => (m ((c : Thread nD τ).loc main_arg0))
set_option quotPrecheck false in
local notation "A1" => (m ((c : Thread nD τ).loc main_arg1))
set_option quotPrecheck false in
local notation "A2" => (m ((c : Thread nD τ).loc main_arg2))
set_option quotPrecheck false in
local notation "A3" => (m ((c : Thread nD τ).loc main_arg3))
set_option quotPrecheck false in
local notation "A4" => (m ((c : Thread nD τ).loc main_arg4))
set_option quotPrecheck false in
local notation "A5" => (m ((c : Thread nD τ).loc main_arg5))
set_option quotPrecheck false in
local notation "A6" => (m ((c : Thread nD τ).loc main_arg6))
set_option quotPrecheck false in
local notation "A7" => (m ((c : Thread nD τ).loc main_arg7))
set_option quotPrecheck false in
local notation "A8" => (m ((c : Thread nD τ).loc main_arg8))

/-! ### Boundary 9 -/

theorem at9_v13 : W9 m ρ c (Proc.devRef .tc main_v13) = Par.eab A2 :=
  (StableHlo.after_of_writes_sub hostOps4 _ hostOps4_writes (by decide)).trans (at8_v13 m ρ c)
theorem at9_v3 : W9 m ρ c (Proc.devRef .tc main_v3) = Par.dst A1 :=
  (StableHlo.after_of_writes_sub hostOps4 _ hostOps4_writes (by decide)).trans (at8_v3 m ρ c)
theorem at9_arg7 : W9 m ρ c (Proc.devRef .tc main_arg7) = A7 :=
  (StableHlo.after_of_writes_sub hostOps4 _ hostOps4_writes (by decide)).trans (at8_arg7 m ρ c)
theorem at9_arg8 : W9 m ρ c (Proc.devRef .tc main_arg8) = A8 :=
  (StableHlo.after_of_writes_sub hostOps4 _ hostOps4_writes (by decide)).trans (at8_arg8 m ρ c)
theorem at9_v12 : W9 m ρ c (Proc.devRef .tc main_v12) = Par.dinv A1 :=
  (StableHlo.after_of_writes_sub hostOps4 _ hostOps4_writes (by decide)).trans (at8_v12 m ρ c)
theorem at9_v77 : W9 m ρ c (Proc.devRef .tc main_v77) = X2 m c :=
  (StableHlo.after_of_writes_sub hostOps4 _ hostOps4_writes (by decide)).trans (at8_v77 m ρ c)
set_option maxHeartbeats 4000000 in
theorem at9_v85 : W9 m ρ c (Proc.devRef .tc main_v85) = Par.gath A1 (X2 m c) := by
  show StableHlo.after hostOps4 (W8 m ρ c) (Proc.devRef .tc main_v85) = _
  after_results_simp
  rw [at8_v77 m ρ c, at8_v1 m ρ c]
  rfl
set_option maxHeartbeats 4000000 in
theorem at9_v88 : W9 m ρ c (Proc.devRef .tc main_v88) = Par.w1b2 A3 := by
  show StableHlo.after hostOps4 (W8 m ρ c) (Proc.devRef .tc main_v88) = _
  after_results_simp
  rw [at8_arg3 m ρ c]
  rfl
set_option maxHeartbeats 4000000 in
theorem at9_v96 : W9 m ρ c (Proc.devRef .tc main_v96) = Par.b1r2 A4 := by
  show StableHlo.after hostOps4 (W8 m ρ c) (Proc.devRef .tc main_v96) = _
  after_results_simp
  rw [at8_arg4 m ρ c]
  rfl
set_option maxHeartbeats 4000000 in
theorem at9_v93 : W9 m ρ c (Proc.devRef .tc main_v93) = Par.w2b2 A5 := by
  show StableHlo.after hostOps4 (W8 m ρ c) (Proc.devRef .tc main_v93) = _
  after_results_simp
  rw [at8_arg5 m ρ c]
  rfl
set_option maxHeartbeats 4000000 in
theorem at9_v97 : W9 m ρ c (Proc.devRef .tc main_v97) = Par.b2r2 A6 := by
  show StableHlo.after hostOps4 (W8 m ρ c) (Proc.devRef .tc main_v97) = _
  after_results_simp
  rw [at8_arg6 m ρ c]
  rfl

/-! ### Boundary 10 -/

theorem at10_v3 : W10 m ρ c (Proc.devRef .tc main_v3) = Par.dst A1 :=
  (W10_of_ne m ρ c main_v3 (by decide)).trans (at9_v3 m ρ c)
theorem at10_arg7 : W10 m ρ c (Proc.devRef .tc main_arg7) = A7 :=
  (W10_of_ne m ρ c main_arg7 (by decide)).trans (at9_arg7 m ρ c)
theorem at10_arg8 : W10 m ρ c (Proc.devRef .tc main_arg8) = A8 :=
  (W10_of_ne m ρ c main_arg8 (by decide)).trans (at9_arg8 m ρ c)
theorem at10_v12 : W10 m ρ c (Proc.devRef .tc main_v12) = Par.dinv A1 :=
  (W10_of_ne m ρ c main_v12 (by decide)).trans (at9_v12 m ρ c)
theorem at10_v77 : W10 m ρ c (Proc.devRef .tc main_v77) = X2 m c :=
  (W10_of_ne m ρ c main_v77 (by decide)).trans (at9_v77 m ρ c)
theorem at10_v98 : W10 m ρ c (Proc.devRef .tc main_v98) = KL.msg2 A1 A2 A3 A4 A5 A6 (X2 m c) := by
  refine (W10_arr m ρ c 6).trans ?_
  rw [Edge4.final]
  unfold Edge4.G
  dsimp only [V9]
  rw [at9_v85 m ρ c, at9_v13 m ρ c, at9_v88 m ρ c, at9_v96 m ρ c, at9_v93 m ρ c, at9_v97 m ρ c]
  rfl

/-! ### Boundary 11 -/

theorem at11_v12 : W11 m ρ c (Proc.devRef .tc main_v12) = Par.dinv A1 :=
  (StableHlo.after_of_writes_sub hostOps5 _ hostOps5_writes (by decide)).trans (at10_v12 m ρ c)
theorem at11_v77 : W11 m ρ c (Proc.devRef .tc main_v77) = X2 m c :=
  (StableHlo.after_of_writes_sub hostOps5 _ hostOps5_writes (by decide)).trans (at10_v77 m ρ c)
set_option maxHeartbeats 4000000 in
theorem at11_v105 : W11 m ρ c (Proc.devRef .tc main_v105) = Par.wsb2 A7 := by
  show StableHlo.after hostOps5 (W10 m ρ c) (Proc.devRef .tc main_v105) = _
  after_results_simp
  rw [at10_arg7 m ρ c]
  rfl
set_option maxHeartbeats 4000000 in
theorem at11_v108 : W11 m ρ c (Proc.devRef .tc main_v108) = Par.bsr2 A8 := by
  show StableHlo.after hostOps5 (W10 m ρ c) (Proc.devRef .tc main_v108) = _
  after_results_simp
  rw [at10_arg8 m ρ c]
  rfl
set_option maxHeartbeats 4000000 in
theorem at11_v102 : W11 m ρ c (Proc.devRef .tc main_v102) = Par.scat A1 (KL.msg2 A1 A2 A3 A4 A5 A6 (X2 m c)) := by
  show StableHlo.after hostOps5 (W10 m ρ c) (Proc.devRef .tc main_v102) = _
  after_results_simp
  rw [at10_v3 m ρ c, at10_v98 m ρ c]
  rfl

/-! ### Boundary 12 -/

theorem at12_v109 : W12 m ρ c (Proc.devRef .tc main_v109) = X3 m c := by
  refine (W12_arr m ρ c 5).trans ?_
  rw [Self5.final]
  unfold Self5.G
  dsimp only [V11]
  rw [at11_v77 m ρ c, at11_v105 m ρ c, at11_v108 m ρ c, at11_v102 m ρ c, at11_v12 m ρ c]
  rfl

end Cert.KernelIdeal.Fold

end
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.RefLayer.lean ====
/-
  The reference program, layer by layer.

  The reference computes three layers one after the other, each with the same operations on the previous layer's node
  features: gather the source rows, join them with the edge features, the two-layer perceptron, the scatter-add by
  destination, the division by the clipped in-degree, and the node update. `layer` is that composition of operations as a
  function of the node features and of the layer's parameters; each layer's value in the program is `layer` of the one
  before. Read at a node and a lane, `layer` is the node update of `Cert.Layer` with the summed messages of the joined
  form, which is the split form.
-/
import proofs.«161121_j12876311953727_2_alg».proof.Proof.Gen.ReferenceIdeal.Read
import proofs.«161121_j12876311953727_2_alg».proof.Proof.LayerSpec
import proofs.«161121_j12876311953727_2_alg».proof.Proof.LibDotRows
import proofs.«161121_j12876311953727_2_alg».proof.Proof.LibConcat2
import Idealize.ShloMosaic.Lib.Pipeline.Value
import Idealize.ShloMosaic.Lib.ValueLayout

noncomputable section

namespace Cert.ReferenceIdeal.RefLayer

open Cert.ReferenceIdeal Cert.ReferenceIdeal.Gen Cert.ReferenceIdeal.Read
open Idealize.ShloMosaic Idealize.ShloMosaic.TcCoe Idealize.ShloMosaic.ValueIdx Cert.Layer
open scoped BigOperators

/-- The messages of a layer: the perceptron of the gathered rows joined with the edge features. -/
def messages (X : FVec Ideal S50000x128 .f32) (ig : IVec S800000x1 32) (ea : FVec Ideal S800000x16 .f32)
    (w1 : FVec Ideal S144x128 .f32) (b1 : FVec Ideal S128 .f32) (w2 : FVec Ideal S128x128 .f32) (b2 : FVec Ideal S128 .f32) :
    FVec Ideal S800000x128 .f32 :=
  addf (Host.dotGeneral dot_S800000x128_S128x128_S800000x128_1_0_0_1_n_n none
      (maximumf
        (addf (Host.dotGeneral dot_S800000x144_S144x128_S800000x128_1_0_0_1_n_n none
            (concatenate S800000x144 1 [⟨S800000x128, Host.gather gather_S50000x128_S800000x1_S800000x128_1_0_n_n_0_1_1128 X ig⟩, ⟨S800000x16, ea⟩]
              concatenates_S800000x128_S800000x16_S800000x144_d1) w1)
          (broadcastInDim S800000x128 ![0, 1] bcast_S1x128_S800000x128_0_1 (broadcastInDim S1x128 ![1] bcast_S128_S1x128_1 b1)))
        (broadcastInDim S800000x128 ![] bcast_S_S800000x128 (constant S_ .f32 0x00000000#32)))
      w2)
    (broadcastInDim S800000x128 ![0, 1] bcast_S1x128_S800000x128_0_1 (broadcastInDim S1x128 ![1] bcast_S128_S1x128_1 b2))

/-- One layer of the reference as a function of the node features and the layer's parameters. -/
def layer (X : FVec Ideal S50000x128 .f32) (ig is : IVec S800000x1 32) (ea : FVec Ideal S800000x16 .f32)
    (w1 : FVec Ideal S144x128 .f32) (b1 : FVec Ideal S128 .f32) (w2 : FVec Ideal S128x128 .f32) (b2 : FVec Ideal S128 .f32)
    (ws : FVec Ideal S128x128 .f32) (bs : FVec Ideal S128 .f32) (dn : FVec Ideal S50000x128 .f32) : FVec Ideal S50000x128 .f32 :=
  addf
    (addf (Host.dotGeneral dot_S50000x128_S128x128_S50000x128_1_0_0_1_n_n none X ws)
      (broadcastInDim S50000x128 ![0, 1] bcast_S1x128_S50000x128_0_1 (broadcastInDim S1x128 ![1] bcast_S128_S1x128_1 bs)))
    (Host.divf
      (Host.scatterAdd scatter_S50000x128_S800000x1_S800000x128_1_0_0_1
        (broadcastInDim S50000x128 ![] bcast_S_S50000x128 (constant S_ .f32 0x00000000#32)) is (messages X ig ea w1 b1 w2 b2))
      dn)

/-- The rows of a node array gathered through an index column. -/
def gatherRows (X : FVec Ideal S50000x128 .f32) (ig : IVec S800000x1 32) : FVec Ideal S800000x128 .f32 :=
  Host.gather gather_S50000x128_S800000x1_S800000x128_1_0_n_n_0_1_1128 X ig

/-- An edge array scatter-added into zeros through an index column. -/
def scatterRows (is : IVec S800000x1 32) (H : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32)) is H

variable (x0 : FVec Ideal S50000x128 .f32) (x1 : IVec S2x800000 32) (x2 : FVec Ideal S800000x16 .f32)
  (x3 : FVec Ideal S3x144x128 .f32) (x4 : FVec Ideal S3x128 .f32) (x5 : FVec Ideal S3x128x128 .f32) (x6 : FVec Ideal S3x128 .f32)
  (x7 : FVec Ideal S3x128x128 .f32) (x8 : FVec Ideal S3x128 .f32)

/-- The first layer's value in the program. -/
theorem v48_eq : val_main_v48 (F := Ideal) x0 x1 x2 x3 x4 x5 x6 x7 x8
    = layer x0 (val_main_v15 (F := Ideal) x1) (val_main_v36 (F := Ideal) x1) x2 (val_main_v19 (F := Ideal) x3) (val_main_v22 (F := Ideal) x4) (val_main_v28 (F := Ideal) x5) (val_main_v31 (F := Ideal) x6)
        (val_main_v41 (F := Ideal) x7) (val_main_v44 (F := Ideal) x8) (val_main_v38 (F := Ideal) x1) := rfl

/-- The second layer's value in the program. -/
theorem v87_eq : val_main_v87 (F := Ideal) x0 x1 x2 x3 x4 x5 x6 x7 x8
    = layer (val_main_v48 (F := Ideal) x0 x1 x2 x3 x4 x5 x6 x7 x8) (val_main_v54 (F := Ideal) x1) (val_main_v75 (F := Ideal) x1) x2 (val_main_v58 (F := Ideal) x3) (val_main_v61 (F := Ideal) x4)
        (val_main_v67 (F := Ideal) x5) (val_main_v70 (F := Ideal) x6) (val_main_v80 (F := Ideal) x7) (val_main_v83 (F := Ideal) x8) (val_main_v77 (F := Ideal) x1) := rfl

/-- The third layer's value in the program: the result. -/
theorem v126_eq : val_main_v126 (F := Ideal) x0 x1 x2 x3 x4 x5 x6 x7 x8
    = layer (val_main_v87 (F := Ideal) x0 x1 x2 x3 x4 x5 x6 x7 x8) (val_main_v93 (F := Ideal) x1) (val_main_v114 (F := Ideal) x1) x2 (val_main_v97 (F := Ideal) x3) (val_main_v100 (F := Ideal) x4)
        (val_main_v106 (F := Ideal) x5) (val_main_v109 (F := Ideal) x6) (val_main_v119 (F := Ideal) x7) (val_main_v122 (F := Ideal) x8) (val_main_v116 (F := Ideal) x1) := rfl

/-! ## A layer read at a node and a lane -/

theorem dotA : dot_S800000x128_S128x128_S800000x128_1_0_0_1_n_n = DotDims.plain 800000 128 128 := rfl
theorem dotB : dot_S800000x144_S144x128_S800000x128_1_0_0_1_n_n = DotDims.plain 800000 144 128 := rfl
theorem dotC : dot_S50000x128_S128x128_S50000x128_1_0_0_1_n_n = DotDims.plain 50000 128 128 := rfl

/-- A bias of 128 lanes laid out as a row of one and then along R rows, read at row e, lane j, is the bias at lane j. -/
theorem bias_apply {R : Nat} (h1 : (⟨1, ![128]⟩ : Shape).BroadcastsInDim ⟨2, ![1, 128]⟩ ![1])
    (h2 : (⟨2, ![1, 128]⟩ : Shape).BroadcastsInDim ⟨2, ![R, 128]⟩ ![0, 1]) (b : (⟨1, ![128]⟩ : Shape).Idx → EReal)
    (e : Fin R) (j : Fin 128) :
    broadcastInDim ⟨2, ![R, 128]⟩ ![0, 1] h2 (broadcastInDim ⟨2, ![1, 128]⟩ ![1] h1 b) (ix2 e j) = b (ix1 j) := by
  rw [broadcastInDim_apply ![0, 1] h2 _ (ix2 e j) (ix2 (0 : Fin 1) j) (fun a => by
        match a with
        | ⟨0, _⟩ => rfl
        | ⟨1, _⟩ => show j.val = if (128 : Nat) = 1 then 0 else j.val; rw [if_neg (by decide)]),
      broadcastInDim_apply ![1] h1 b (ix2 (0 : Fin 1) j) (ix1 j) (fun a => by
        match a with
        | ⟨0, _⟩ => show j.val = if (128 : Nat) = 1 then 0 else j.val; rw [if_neg (by decide)])]

/-- The messages of the reference, in the split form: the 144 joined features of an edge are its gathered row followed
    by its edge features, so the hidden row over the joined features is the hidden row over the two parts. -/
theorem messages_eq (X : FVec Ideal S50000x128 .f32) (ig : IVec S800000x1 32) (ea : FVec Ideal S800000x16 .f32)
    (w1 : FVec Ideal S144x128 .f32) (b1 : FVec Ideal S128 .f32) (w2 : FVec Ideal S128x128 .f32) (b2 : FVec Ideal S128 .f32) :
    messages X ig ea w1 b1 w2 b2
      = msgArr (E := 800000) (gatherRows X ig) ea
          (fun a k => w1 (ix2 a k)) (fun k => b1 (ix1 k)) (fun a k => w2 (ix2 a k)) (fun k => b2 (ix1 k)) := by
  unfold gatherRows
  funext i
  obtain ⟨e, j, rfl⟩ : ∃ (e : Fin 800000) (j : Fin 128), i = ix2 e j := ⟨i 0, i 1, eq_ix2 i⟩
  unfold messages
  simp only [dotA, dotB]
  rw [addf_apply, Cert.Lib.DotRows.dotGeneral_plain_apply, bias_apply]
  unfold msgArr msg
  congr 1
  refine Finset.sum_congr rfl fun k _ => ?_
  congr 1
  rw [maximumf_apply, addf_apply, Cert.Lib.DotRows.dotGeneral_plain_apply, bias_apply, broadcastInDim_scalar_apply,
    constant_apply, Ideal.ofBits_zero_f32]
  have hL : ∀ i : Fin 128,
      concatenate S800000x144 1 [⟨S800000x128, Host.gather gather_S50000x128_S800000x1_S800000x128_1_0_n_n_0_1_1128 X ig⟩, ⟨S800000x16, ea⟩]
        concatenates_S800000x128_S800000x16_S800000x144_d1 (ix2 e (inL i))
      = Host.gather gather_S50000x128_S800000x1_S800000x128_1_0_n_n_0_1_1128 X ig (ix2 e i) := fun i =>
    Cert.LibConcat2.concatenate2_left (R := 800000) (n₁ := 128) (n₂ := 16) (w := 144)
      (Host.gather gather_S50000x128_S800000x1_S800000x128_1_0_n_n_0_1_1128 X ig) ea
      concatenates_S800000x128_S800000x16_S800000x144_d1 e (inL i) i rfl
  have hR : ∀ i : Fin 16,
      concatenate S800000x144 1 [⟨S800000x128, Host.gather gather_S50000x128_S800000x1_S800000x128_1_0_n_n_0_1_1128 X ig⟩, ⟨S800000x16, ea⟩]
        concatenates_S800000x128_S800000x16_S800000x144_d1 (ix2 e (inR i))
      = ea (ix2 e i) := fun i =>
    Cert.LibConcat2.concatenate2_right (R := 800000) (n₁ := 128) (n₂ := 16) (w := 144)
      (Host.gather gather_S50000x128_S800000x1_S800000x128_1_0_n_n_0_1_1128 X ig) ea
      concatenates_S800000x128_S800000x16_S800000x144_d1 e (inR i) i rfl
  rw [sum_joined]
  simp only [hL, hR]
  rfl

/-- The layer at node n, lane j: the node's row times the update weights, the bias added, the summed messages over the
    divisor added. -/
theorem layer_apply (X : FVec Ideal S50000x128 .f32) (ig is : IVec S800000x1 32) (ea : FVec Ideal S800000x16 .f32)
    (w1 : FVec Ideal S144x128 .f32) (b1 : FVec Ideal S128 .f32) (w2 : FVec Ideal S128x128 .f32) (b2 : FVec Ideal S128 .f32)
    (ws : FVec Ideal S128x128 .f32) (bs : FVec Ideal S128 .f32) (dn : FVec Ideal S50000x128 .f32) (n : Fin 50000) (j : Fin 128) :
    layer X ig is ea w1 b1 w2 b2 ws bs dn (ix2 n j)
      = (∑ k : Fin 128, X (ix2 n k) * ws (ix2 k j) + bs (ix1 j))
        + Ideal.div (scatterRows is (messages X ig ea w1 b1 w2 b2) (ix2 n j)) (dn (ix2 n j)) := by
  unfold layer scatterRows
  simp only [dotC]
  rw [addf_apply, addf_apply, Cert.Lib.DotRows.dotGeneral_plain_apply, bias_apply]
  rfl

end Cert.ReferenceIdeal.RefLayer

end
-- ==== Proof.Bridge.lean ====
/-
  The kernel program's layer is the reference's layer.

  Both programs gather by the same index column and scatter-add by the same index column, so those two operations are the
  same functions on both sides. What differs is the arrangement of a layer between them. The kernel forms the first
  product of the perceptron in two parts and the reference over the joined features: one sum over a disjoint union. The
  kernel multiplies the summed messages by the reciprocal of the clipped in-degree and the reference divides by the clipped
  in-degree: the clipped in-degree is at least one, so it is not zero, and the two agree on every extended real. The
  kernel's parameter slices are the reference's, its biases laid out as rows of one. None of this needs a finite input.
-/
import proofs.«161121_j12876311953727_2_alg».proof.Proof.KLayer
import proofs.«161121_j12876311953727_2_alg».proof.Proof.RefLayer
import Idealize.ShloMosaic.Lib.IdealHost
import Idealize.ShloMosaic.Lib.ValueLayout

noncomputable section

namespace Cert.Bridge

open Cert.KernelIdeal Idealize.ShloMosaic Idealize.ShloMosaic.ValueIdx Cert.Layer
open scoped BigOperators

/-- A column [50000, 1] laid along the 128 lanes, read at node n and lane j, is the column at node n. -/
theorem col_apply (h : (⟨2, ![50000, 1]⟩ : Shape).BroadcastsInDim ⟨2, ![50000, 128]⟩ ![0, 1])
    (x : (⟨2, ![50000, 1]⟩ : Shape).Idx → EReal) (n : Fin 50000) (j : Fin 128) :
    broadcastInDim ⟨2, ![50000, 128]⟩ ![0, 1] h x (ix2 n j) = x (ix2 n (0 : Fin 1)) :=
  broadcastInDim_apply ![0, 1] h x (ix2 n j) (ix2 n (0 : Fin 1)) (fun a => by
    match a with
    | ⟨0, _⟩ => show n.val = if (50000 : Nat) = 1 then 0 else n.val; rw [if_neg (by decide)]
    | ⟨1, _⟩ => rfl)

variable (a0 : FVec Ideal S50000x128 .f32) (a1 : IVec S2x800000 32) (a2 : FVec Ideal S800000x16 .f32)
  (a3 : FVec Ideal S3x144x128 .f32) (a4 : FVec Ideal S3x128 .f32) (a5 : FVec Ideal S3x128x128 .f32) (a6 : FVec Ideal S3x128 .f32)
  (a7 : FVec Ideal S3x128x128 .f32) (a8 : FVec Ideal S3x128 .f32)

/-- The reference's clipped in-degrees are the kernel program's: the same scatter-add of ones, the same clip. -/
theorem clipped_eq : Cert.ReferenceIdeal.Read.val_main_v9 (F := Ideal) a1 = Par.dn1 a1 := rfl

/-- The kernel program's edge features are the reference's. -/
theorem eab_eq : Par.eab a2 = a2 := rfl

/-! ### Layer 0 -/

theorem gath_eq0 (X : FVec Ideal S50000x128 .f32) : Par.gath a1 X = Cert.ReferenceIdeal.RefLayer.gatherRows X (Cert.ReferenceIdeal.Read.val_main_v15 (F := Ideal) a1) := rfl
theorem scat_eq0 (H : FVec Ideal S800000x128 .bf16) : Par.scat a1 H = Cert.ReferenceIdeal.RefLayer.scatterRows (Cert.ReferenceIdeal.Read.val_main_v36 (F := Ideal) a1) H := rfl
theorem w1_eq0 : Par.w1b0 a3 = Cert.ReferenceIdeal.Read.val_main_v19 (F := Ideal) a3 := rfl
theorem w2_eq0 : Par.w2b0 a5 = Cert.ReferenceIdeal.Read.val_main_v28 (F := Ideal) a5 := rfl
theorem ws_eq0 : Par.wsb0 a7 = Cert.ReferenceIdeal.Read.val_main_v41 (F := Ideal) a7 := rfl
theorem b1_eq0 (k : Fin 128) : Par.b1r0 a4 (ix2 (0 : Fin 1) k) = Cert.ReferenceIdeal.Read.val_main_v22 (F := Ideal) a4 (ix1 k) := shapeCast_a_1a_apply _ _ 0 k
theorem b2_eq0 (k : Fin 128) : Par.b2r0 a6 (ix2 (0 : Fin 1) k) = Cert.ReferenceIdeal.Read.val_main_v31 (F := Ideal) a6 (ix1 k) := shapeCast_a_1a_apply _ _ 0 k
theorem bs_eq0 (k : Fin 128) : Par.bsr0 a8 (ix2 (0 : Fin 1) k) = Cert.ReferenceIdeal.Read.val_main_v44 (F := Ideal) a8 (ix1 k) := shapeCast_a_1a_apply _ _ 0 k

/-- The summed messages times the reciprocal clipped in-degree is the summed messages over layer 0's divisor. -/
theorem factor0 (S : EReal) (n : Fin 50000) (j : Fin 128) :
    S * Par.dinv a1 (ix2 n j) = Ideal.div S (Cert.ReferenceIdeal.Read.val_main_v38 (F := Ideal) a1 (ix2 n j)) := by
  unfold Par.dinv Cert.ReferenceIdeal.Read.val_main_v38
  rw [col_apply, col_apply, hostDivf_apply, clipped_eq]
  unfold Par.dn1
  rw [maximumf_apply, broadcastInDim_scalar_apply, constant_apply]
  exact mul_recip_clip S _

/-- Layer 0 of the kernel program is layer 0 of the reference, on every node array. -/
theorem layer_eq0 (X : FVec Ideal S50000x128 .f32) :
    KL.layer0 a1 a2 a3 a4 a5 a6 a7 a8 X
      = Cert.ReferenceIdeal.RefLayer.layer X (Cert.ReferenceIdeal.Read.val_main_v15 (F := Ideal) a1) (Cert.ReferenceIdeal.Read.val_main_v36 (F := Ideal) a1) a2 (Cert.ReferenceIdeal.Read.val_main_v19 (F := Ideal) a3) (Cert.ReferenceIdeal.Read.val_main_v22 (F := Ideal) a4) (Cert.ReferenceIdeal.Read.val_main_v28 (F := Ideal) a5)
          (Cert.ReferenceIdeal.Read.val_main_v31 (F := Ideal) a6) (Cert.ReferenceIdeal.Read.val_main_v41 (F := Ideal) a7) (Cert.ReferenceIdeal.Read.val_main_v44 (F := Ideal) a8) (Cert.ReferenceIdeal.Read.val_main_v38 (F := Ideal) a1) := by
  funext i
  obtain ⟨n, j, rfl⟩ : ∃ (n : Fin 50000) (j : Fin 128), i = ix2 n j := ⟨i 0, i 1, eq_ix2 i⟩
  rw [Cert.ReferenceIdeal.RefLayer.layer_apply, Cert.ReferenceIdeal.RefLayer.messages_eq, ← factor0]
  unfold KL.layer0 KL.msg0
  simp only [gath_eq0, scat_eq0, eab_eq, w1_eq0, w2_eq0, ws_eq0, b1_eq0, b2_eq0, bs_eq0]
  rfl

/-! ### Layer 1 -/

theorem gath_eq1 (X : FVec Ideal S50000x128 .f32) : Par.gath a1 X = Cert.ReferenceIdeal.RefLayer.gatherRows X (Cert.ReferenceIdeal.Read.val_main_v54 (F := Ideal) a1) := rfl
theorem scat_eq1 (H : FVec Ideal S800000x128 .bf16) : Par.scat a1 H = Cert.ReferenceIdeal.RefLayer.scatterRows (Cert.ReferenceIdeal.Read.val_main_v75 (F := Ideal) a1) H := rfl
theorem w1_eq1 : Par.w1b1 a3 = Cert.ReferenceIdeal.Read.val_main_v58 (F := Ideal) a3 := rfl
theorem w2_eq1 : Par.w2b1 a5 = Cert.ReferenceIdeal.Read.val_main_v67 (F := Ideal) a5 := rfl
theorem ws_eq1 : Par.wsb1 a7 = Cert.ReferenceIdeal.Read.val_main_v80 (F := Ideal) a7 := rfl
theorem b1_eq1 (k : Fin 128) : Par.b1r1 a4 (ix2 (0 : Fin 1) k) = Cert.ReferenceIdeal.Read.val_main_v61 (F := Ideal) a4 (ix1 k) := shapeCast_a_1a_apply _ _ 0 k
theorem b2_eq1 (k : Fin 128) : Par.b2r1 a6 (ix2 (0 : Fin 1) k) = Cert.ReferenceIdeal.Read.val_main_v70 (F := Ideal) a6 (ix1 k) := shapeCast_a_1a_apply _ _ 0 k
theorem bs_eq1 (k : Fin 128) : Par.bsr1 a8 (ix2 (0 : Fin 1) k) = Cert.ReferenceIdeal.Read.val_main_v83 (F := Ideal) a8 (ix1 k) := shapeCast_a_1a_apply _ _ 0 k

/-- The summed messages times the reciprocal clipped in-degree is the summed messages over layer 1's divisor. -/
theorem factor1 (S : EReal) (n : Fin 50000) (j : Fin 128) :
    S * Par.dinv a1 (ix2 n j) = Ideal.div S (Cert.ReferenceIdeal.Read.val_main_v77 (F := Ideal) a1 (ix2 n j)) := by
  unfold Par.dinv Cert.ReferenceIdeal.Read.val_main_v77
  rw [col_apply, col_apply, hostDivf_apply, clipped_eq]
  unfold Par.dn1
  rw [maximumf_apply, broadcastInDim_scalar_apply, constant_apply]
  exact mul_recip_clip S _

/-- Layer 1 of the kernel program is layer 1 of the reference, on every node array. -/
theorem layer_eq1 (X : FVec Ideal S50000x128 .f32) :
    KL.layer1 a1 a2 a3 a4 a5 a6 a7 a8 X
      = Cert.ReferenceIdeal.RefLayer.layer X (Cert.ReferenceIdeal.Read.val_main_v54 (F := Ideal) a1) (Cert.ReferenceIdeal.Read.val_main_v75 (F := Ideal) a1) a2 (Cert.ReferenceIdeal.Read.val_main_v58 (F := Ideal) a3) (Cert.ReferenceIdeal.Read.val_main_v61 (F := Ideal) a4) (Cert.ReferenceIdeal.Read.val_main_v67 (F := Ideal) a5)
          (Cert.ReferenceIdeal.Read.val_main_v70 (F := Ideal) a6) (Cert.ReferenceIdeal.Read.val_main_v80 (F := Ideal) a7) (Cert.ReferenceIdeal.Read.val_main_v83 (F := Ideal) a8) (Cert.ReferenceIdeal.Read.val_main_v77 (F := Ideal) a1) := by
  funext i
  obtain ⟨n, j, rfl⟩ : ∃ (n : Fin 50000) (j : Fin 128), i = ix2 n j := ⟨i 0, i 1, eq_ix2 i⟩
  rw [Cert.ReferenceIdeal.RefLayer.layer_apply, Cert.ReferenceIdeal.RefLayer.messages_eq, ← factor1]
  unfold KL.layer1 KL.msg1
  simp only [gath_eq1, scat_eq1, eab_eq, w1_eq1, w2_eq1, ws_eq1, b1_eq1, b2_eq1, bs_eq1]
  rfl

/-! ### Layer 2 -/

theorem gath_eq2 (X : FVec Ideal S50000x128 .f32) : Par.gath a1 X = Cert.ReferenceIdeal.RefLayer.gatherRows X (Cert.ReferenceIdeal.Read.val_main_v93 (F := Ideal) a1) := rfl
theorem scat_eq2 (H : FVec Ideal S800000x128 .bf16) : Par.scat a1 H = Cert.ReferenceIdeal.RefLayer.scatterRows (Cert.ReferenceIdeal.Read.val_main_v114 (F := Ideal) a1) H := rfl
theorem w1_eq2 : Par.w1b2 a3 = Cert.ReferenceIdeal.Read.val_main_v97 (F := Ideal) a3 := rfl
theorem w2_eq2 : Par.w2b2 a5 = Cert.ReferenceIdeal.Read.val_main_v106 (F := Ideal) a5 := rfl
theorem ws_eq2 : Par.wsb2 a7 = Cert.ReferenceIdeal.Read.val_main_v119 (F := Ideal) a7 := rfl
theorem b1_eq2 (k : Fin 128) : Par.b1r2 a4 (ix2 (0 : Fin 1) k) = Cert.ReferenceIdeal.Read.val_main_v100 (F := Ideal) a4 (ix1 k) := shapeCast_a_1a_apply _ _ 0 k
theorem b2_eq2 (k : Fin 128) : Par.b2r2 a6 (ix2 (0 : Fin 1) k) = Cert.ReferenceIdeal.Read.val_main_v109 (F := Ideal) a6 (ix1 k) := shapeCast_a_1a_apply _ _ 0 k
theorem bs_eq2 (k : Fin 128) : Par.bsr2 a8 (ix2 (0 : Fin 1) k) = Cert.ReferenceIdeal.Read.val_main_v122 (F := Ideal) a8 (ix1 k) := shapeCast_a_1a_apply _ _ 0 k

/-- The summed messages times the reciprocal clipped in-degree is the summed messages over layer 2's divisor. -/
theorem factor2 (S : EReal) (n : Fin 50000) (j : Fin 128) :
    S * Par.dinv a1 (ix2 n j) = Ideal.div S (Cert.ReferenceIdeal.Read.val_main_v116 (F := Ideal) a1 (ix2 n j)) := by
  unfold Par.dinv Cert.ReferenceIdeal.Read.val_main_v116
  rw [col_apply, col_apply, hostDivf_apply, clipped_eq]
  unfold Par.dn1
  rw [maximumf_apply, broadcastInDim_scalar_apply, constant_apply]
  exact mul_recip_clip S _

/-- Layer 2 of the kernel program is layer 2 of the reference, on every node array. -/
theorem layer_eq2 (X : FVec Ideal S50000x128 .f32) :
    KL.layer2 a1 a2 a3 a4 a5 a6 a7 a8 X
      = Cert.ReferenceIdeal.RefLayer.layer X (Cert.ReferenceIdeal.Read.val_main_v93 (F := Ideal) a1) (Cert.ReferenceIdeal.Read.val_main_v114 (F := Ideal) a1) a2 (Cert.ReferenceIdeal.Read.val_main_v97 (F := Ideal) a3) (Cert.ReferenceIdeal.Read.val_main_v100 (F := Ideal) a4) (Cert.ReferenceIdeal.Read.val_main_v106 (F := Ideal) a5)
          (Cert.ReferenceIdeal.Read.val_main_v109 (F := Ideal) a6) (Cert.ReferenceIdeal.Read.val_main_v119 (F := Ideal) a7) (Cert.ReferenceIdeal.Read.val_main_v122 (F := Ideal) a8) (Cert.ReferenceIdeal.Read.val_main_v116 (F := Ideal) a1) := by
  funext i
  obtain ⟨n, j, rfl⟩ : ∃ (n : Fin 50000) (j : Fin 128), i = ix2 n j := ⟨i 0, i 1, eq_ix2 i⟩
  rw [Cert.ReferenceIdeal.RefLayer.layer_apply, Cert.ReferenceIdeal.RefLayer.messages_eq, ← factor2]
  unfold KL.layer2 KL.msg2
  simp only [gath_eq2, scat_eq2, eab_eq, w1_eq2, w2_eq2, ws_eq2, b1_eq2, b2_eq2, bs_eq2]
  rfl

/-- The three layers of the kernel program one after the other give the reference's result. -/
theorem result_eq :
    KL.layer2 a1 a2 a3 a4 a5 a6 a7 a8 (KL.layer1 a1 a2 a3 a4 a5 a6 a7 a8 (KL.layer0 a1 a2 a3 a4 a5 a6 a7 a8 a0))
      = Cert.ReferenceIdeal.Read.val_main_v126 (F := Ideal) a0 a1 a2 a3 a4 a5 a6 a7 a8 := by
  rw [Cert.ReferenceIdeal.RefLayer.v126_eq, Cert.ReferenceIdeal.RefLayer.v87_eq, Cert.ReferenceIdeal.RefLayer.v48_eq, ← layer_eq0, ← layer_eq1, ← layer_eq2]

end Cert.Bridge

end
-- ==== Proof.lean ====
/-
  Three layers of message passing on a graph of 50000 nodes and 800000 edges: the kernel program against its reference.

  A layer gathers every edge's source row of the node features, forms the edge's message by a two-layer perceptron of the
  gathered row joined with the edge's 16 features, sums the messages at their destination nodes, and sets every node's
  new row to its old row times a weight matrix, plus a bias, plus the mean of its incoming messages (the sum over the
  in-degree clipped below at one). The kernel program runs the perceptron and the node update as kernel launches over
  blocks of edges and of nodes, forms the perceptron's first product in two parts instead of over joined features, and
  multiplies by a reciprocal computed once instead of dividing; gather and scatter-add are host operations on both sides.

  Over the extended reals the two programs compute the same array: each launch's result is one function of the arrays it
  finds (its blocks are independent rows and tile the array); folding the host stretches and the launches over the launch
  memory gives three applications of the kernel's layer; each is the reference's layer (a sum over a disjoint union; a
  divisor that is at least one); and the reference's run is three applications of its layer. No step uses that the
  inputs are finite. The three frame claims are the generated frames and the reference's generated run; the ideal pass
  rewrote nothing, so there is nothing to preserve.
-/
import proofs.«161121_j12876311953727_2_alg».proof.Defs
import proofs.«161121_j12876311953727_2_alg».proof.Proof.Gen.Kernel
import proofs.«161121_j12876311953727_2_alg».proof.Proof.Gen.Kernel.Frame
import proofs.«161121_j12876311953727_2_alg».proof.Proof.Gen.KernelIdeal
import proofs.«161121_j12876311953727_2_alg».proof.Proof.Gen.KernelIdeal.Frame
import proofs.«161121_j12876311953727_2_alg».proof.Proof.Gen.ReferenceIdeal
import proofs.«161121_j12876311953727_2_alg».proof.Proof.Gen.ReferenceIdeal.Run
import proofs.«161121_j12876311953727_2_alg».proof.Proof.Gen.ReferenceIdeal.Read
import proofs.«161121_j12876311953727_2_alg».proof.Proof.Gen.Pre_finite_inputs
import proofs.«161121_j12876311953727_2_alg».proof.Proof.KRun
import proofs.«161121_j12876311953727_2_alg».proof.Proof.KFoldC
import proofs.«161121_j12876311953727_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the node features after three layers: the kernel program by its fold, the reference by its
    run, the two layer functions being one. -/
theorem algebraic : Cert.algebraic_KernelIdeal_ReferenceIdeal := by
  intro m ρ m' ρ' _ hagree
  refine ⟨fun c => Cert.KernelIdeal.Fold.X3 m c, ?_, ?_⟩
  · exact (θ_run Cert.KernelIdeal.defs _ _).mono
      (fun r h c => ⟨(h c).1.trans (Cert.KernelIdeal.Fold.at12_v109 m ρ c), (h c).2⟩)
      (Cert.KernelIdeal.Valued.valued (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v126_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
